-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S600000x128 .f32) (main_arg2 : IVec S600000 32) (main_arg3 : IVec S600000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S600000x1 : Shape := ⟨2, ![600000, 1]⟩
abbrev S1x128 : Shape := ⟨2, ![1, 128]⟩
abbrev S4800x128 : Shape := ⟨2, ![4800, 128]⟩
abbrev S4000x128 : Shape := ⟨2, ![4000, 128]⟩

abbrev nBuf : Space → Nat
  | .hbm => 55
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S100000x128, .bf16⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S600000x128, .f32⟩
  | .hbm, ⟨42, _⟩ => ⟨S600000x128, .bf16⟩
  | .hbm, ⟨43, _⟩ => ⟨S600000x128, .f32⟩
  | .hbm, ⟨44, _⟩ => ⟨S_, .f32⟩
  | .hbm, ⟨45, _⟩ => ⟨S100000x128, .f32⟩
  | .hbm, ⟨46, _⟩ => ⟨S600000x1, .i32⟩
  | .hbm, ⟨47, _⟩ => ⟨S100000x128, .f32⟩
  | .hbm, ⟨48, _⟩ => ⟨S100000x128, .bf16⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .f32⟩
  | .local _ .vmem, ⟨0, _⟩ => ⟨S4800x128, .bf16⟩
  | .local _ .vmem, ⟨1, _⟩ => ⟨S4800x128, .bf16⟩
  | .local _ .vmem, ⟨2, _⟩ => ⟨S4800x128, .bf16⟩
  | .local _ .vmem, ⟨3, _⟩ => ⟨S4800x128, .bf16⟩
  | .local _ .vmem, ⟨4, _⟩ => ⟨S4800x128, .f32⟩
  | .local _ .vmem, ⟨5, _⟩ => ⟨S4800x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4800x128, .f32⟩
  | .local _ .vmem, ⟨15, _⟩ => ⟨S4800x128, .f32⟩
  | .local _ .vmem, ⟨16, _⟩ => ⟨S4800x128, .bf16⟩
  | .local _ .vmem, ⟨17, _⟩ => ⟨S4800x128, .bf16⟩
  | .local _ .vmem, ⟨18, _⟩ => ⟨S4000x128, .f32⟩
  | .local _ .vmem, ⟨19, _⟩ => ⟨S4000x128, .f32⟩
  | .local _ .vmem, ⟨20, _⟩ => ⟨S4000x128, .bf16⟩
  | .local _ .vmem, ⟨21, _⟩ => ⟨S4000x128, .bf16⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S4000x128, .f32⟩
  | .local _ .vmem, ⟨30, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4800x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4800x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4800x128 : S1x128.Broadcasts S4800x128
  packedbf16_S4800x128_S4800x128_0_0 : (Rect.unit (s := S4800x128) ![0, 0] S4800x128.size inb_S4800x128_S4800x128_0_0).PackedRows (EltTy.packing .bf16)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  dot_S4800x128_S128x128_S4800x128_1_0_0_1_n_n_wf : DotDims.WF S4800x128 S128x128 S4800x128 [1] [0] [0] [1] [] []
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x128.size a ≤ S600000x128.size a
  hwx0_0 : ∀ i : grid0.Coords, EltTy.bits .bf16 = 32 ∨ (Rect.block (s := S600000x128) S4800x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x128.size a ≤ S600000x128.size a
  hwx0_1 : ∀ i : grid0.Coords, EltTy.bits .bf16 = 32 ∨ (Rect.block (s := S600000x128) S4800x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x128.size a ≤ S600000x128.size a
  hwx0_2 : ∀ i : grid0.Coords, EltTy.bits .f32 = 32 ∨ (Rect.block (s := S600000x128) S4800x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4800x128.size a ≤ S600000x128.size a
  hwx0_11 : ∀ i : grid0.Coords, EltTy.bits .f32 = 32 ∨ (Rect.block (s := S600000x128) S4800x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4800x128.size a ≤ S600000x128.size a
  hwx0_12 : ∀ i : grid0.Coords, EltTy.bits .bf16 = 32 ∨ (Rect.block (s := S600000x128) S4800x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v7) S4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4800x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21_0) S4800x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v21_1) S4800x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S100000x256 : Shape := ⟨2, ![100000, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x384, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S1x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S1x128, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S100000x256, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its two results named.  The program is four segments: a stretch of host operations,
  the edge region, a second stretch of host operations, the node region.  The buffer contents at the boundaries are a
  fold through the segments; after the last one every unscoped buffer holds the last boundary's contents.  So every
  weakly fair execution terminates with the new node array and the new edge array at the last boundary's contents of
  their buffers, and with the sixteen argument arrays as launched.  Stated at any float instance.
-/
import proofs.«138255_j73684458930837_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the new node array (`main_v32`) and the new edge
    array (`main_v21_0`) at the last boundary's contents, and every argument array as launched. -/
theorem run_named : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_v21_0) = W4 m ρ c (Proc.devRef .tc main_v21_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       h c _ (mem_uc main_v21_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.KVal

end
-- ==== Proof.Spec.lean ====
/-
  The mathematics of one graph-network block, row by row, on the extended reals.

  A dense layer sends a row x (K entries) to the row whose entry q is (Σ_k x k · W k q) + b q.  Each of the block's two
  multilayer perceptrons is three dense layers with max(·, 0) after the first two.  The edge perceptron's input row is
  the sender's row, the receiver's row and the edge's own row laid side by side (384 entries) against a 384-row weight;
  the node perceptron's is the node's row and its aggregate side by side (256 entries) against a 256-row weight.

  The one law used: a sum over 384 (or 256) consecutive indices is the sum of the sums over its 128-wide thirds (or
  halves).  It is a regrouping of a finite sum in a commutative monoid, so it holds for all extended reals, infinite
  ones included: no finiteness of the inputs is needed.
-/
import Idealize.ShloMosaic.Lib.ValueIdx

noncomputable section

open scoped BigOperators

namespace GNN

/-- A dense layer's output at column `q`: the row times the weight's column, plus the bias. -/
def dense {K : ℕ} (x : Fin K → EReal) (W : Fin K → Fin 128 → EReal) (b : Fin 128 → EReal) (q : Fin 128) : EReal :=
  (∑ k, x k * W k q) + b q

/-- The second and third layers, from the first layer's pre-activation row `z`. -/
def tail (z : Fin 128 → EReal) (W2 : Fin 128 → Fin 128 → EReal) (b2 : Fin 128 → EReal)
    (W3 : Fin 128 → Fin 128 → EReal) (b3 : Fin 128 → EReal) (q : Fin 128) : EReal :=
  dense (fun j => max (dense (fun k => max (z k) 0) W2 b2 j) 0) W3 b3 q

/-- The edge perceptron's first pre-activation with the 384-row weight taken in its three 128-row parts. -/
def pre3 (s r e : Fin 128 → EReal) (A B C : Fin 128 → Fin 128 → EReal) (b1 : Fin 128 → EReal) (j : Fin 128) : EReal :=
  ((∑ k, s k * A k j + ∑ k, r k * B k j) + ∑ k, e k * C k j) + b1 j

/-- The node perceptron's first pre-activation with the 256-row weight taken in its two 128-row parts. -/
def pre2 (n a : Fin 128 → EReal) (A B : Fin 128 → Fin 128 → EReal) (b1 : Fin 128 → EReal) (j : Fin 128) : EReal :=
  (∑ k, n k * A k j + ∑ k, a k * B k j) + b1 j

/-- A sum over 256 consecutive indices is the sum over the first 128 plus the sum over the last 128. -/
theorem sum_halves {M : Type*} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) f

/-- A sum over 384 consecutive indices is the sum of the sums over its three 128-wide thirds. -/
theorem sum_thirds {M : Type*} [AddCommMonoid M] (f : Fin 384 → M) :
    ∑ k : Fin 384, f k
      = (∑ k : Fin 128, f ⟨k.val, by omega⟩ + ∑ k : Fin 128, f ⟨128 + k.val, by omega⟩)
        + ∑ k : Fin 128, f ⟨256 + k.val, by omega⟩ := by
  have h1 : ∑ k : Fin 384, f k
      = ∑ k : Fin 256, f ⟨k.val, by omega⟩ + ∑ k : Fin 128, f ⟨256 + k.val, by omega⟩ :=
    Fin.sum_univ_add (a := 256) (b := 128) f
  rw [h1, sum_halves (fun k : Fin 256 => f ⟨k.val, by omega⟩)]

end GNN

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KEdgeBody.lean ====
/-
  The edge region's body, read at one entry.  At a grid point the body holds a block of 4800 sender rows, 4800 receiver
  rows and 4800 edge rows, the three 128-row parts of the first weight, the two square weights and the three one-row
  biases.  Its matrix products accumulate into zero, so each is a plain sum over the 128 contracted columns; changes of
  float format are the identity on the extended reals.  So entry (r, q) of the updated-edge block is the edge
  perceptron of row r alone: the three partial products added, the bias, max(·, 0), a dense layer, max(·, 0), a dense
  layer.  The block stored as the new edges adds the edge's own entry; the block handed to the aggregation is the
  update itself.
-/
import proofs.«138255_j73684458930837_2_alg».proof.Proof.Gen.KernelIdeal.Skeleton
import proofs.«138255_j73684458930837_2_alg».proof.Proof.Spec
import proofs.«138255_j73684458930837_2_alg».proof.Proof.LibMatmulIx
import Idealize.ShloMosaic.Lib.ValueLayout
import Idealize.ShloMosaic.Lib.Pipeline.Value

noncomputable section

namespace Cert.KernelIdeal.KVal

open Idealize.ShloMosaic Idealize.ShloMosaic.ValueIdx Cert.KernelIdeal Cert.KernelIdeal.Gen
open scoped BigOperators

/-- The edge body's contraction: rows of the left operand against rows of the right one. -/
abbrev dotE : DotDims S4800x128 S128x128 S4800x128 := dot_S4800x128_S128x128_S4800x128_1_0_0_1_n_n

theorem dotE_l0 (i : S4800x128.Idx) (q : dotE.contr.Idx) : (dotE.lhsIdx i q 0).val = (i 0).val := by
  unfold DotDims.lhsIdx
  rw [dif_neg (show ¬(0 : Fin S4800x128.rank) ∈ dotE.lhsBatch by decide), dif_pos (show (0 : Fin S4800x128.rank) ∈ dotE.lhsNonContracting by decide)]
  rfl
theorem dotE_l1 (i : S4800x128.Idx) (q : dotE.contr.Idx) : (dotE.lhsIdx i q 1).val = (q ⟨0, by decide⟩).val :=
  dotE.lhsIdx_val_of_single rfl i q
theorem dotE_r0 (i : S4800x128.Idx) (q : dotE.contr.Idx) : (dotE.rhsIdx i q 0).val = (q ⟨0, by decide⟩).val :=
  dotE.rhsIdx_val_of_single rfl i q
theorem dotE_r1 (i : S4800x128.Idx) (q : dotE.contr.Idx) : (dotE.rhsIdx i q 1).val = (i 1).val := by
  unfold DotDims.rhsIdx
  rw [dif_neg (show ¬(1 : Fin S128x128.rank) ∈ dotE.rhsBatch by decide), dif_pos (show (1 : Fin S128x128.rank) ∈ dotE.rhsNonContracting by decide)]
  rfl

/-- A 4800-row block times a 128 × 128 weight, accumulated into zero, at entry (r, q): the sum over the contracted
    column k of the block's (r, k) entry times the weight's (k, q) entry. -/
theorem mmE {φ₁ φ₂ : FTy} (x : FVec Ideal S4800x128 φ₁) (w : FVec Ideal S128x128 φ₂) (r : Fin 4800) (q : Fin 128) :
    matmul dot_S4800x128_S128x128_S4800x128_1_0_0_1_n_n none x w (constant (F := Ideal) S4800x128 .f32 0x00000000#32) (ix2 r q)
      = ∑ k : Fin 128, x (ix2 r k) * w (ix2 k q) :=
  MatmulIx.matmul_zero_ix2 dotE rfl rfl dotE_l0 dotE_l1 dotE_r0 dotE_r1 none x w r q

/-- The scalar unit's zero word is the extended real zero. -/
theorem scalar_zero : (Scalar.ofBits .f32 0x00000000#32 : Ideal .f32) = 0 := Ideal.ofBits_zero_f32

/-- A one-row bias spread over 4800 rows reads its one row. -/
theorem biasE (v : FVec Ideal S1x128 .f32) (r : Fin 4800) (q : Fin 128) :
    broadcastTo S4800x128 v broadcasts_S1x128_S4800x128 (ix2 r q) = v (ix2 (0 : Fin 1) q) :=
  broadcastTo_1b_ab_apply v broadcasts_S1x128_S4800x128 r q

/-- Entry (r, q) after the first two layers: the second layer's pre-activation of row r. -/
theorem edge_hidden (x0 x1 : FVec Ideal S4800x128 .bf16) (x2 : FVec Ideal S4800x128 .f32)
    (x3 x4 x5 : FVec Ideal S128x128 .f32) (x6 : FVec Ideal S1x128 .f32) (x7 : FVec Ideal S128x128 .f32)
    (x8 : FVec Ideal S1x128 .f32) (r : Fin 4800) (q : Fin 128) :
    k0_pay4 (F := Ideal) x0 x1 x2 x3 x4 x5 x6 x7 x8 (ix2 r q)
      = GNN.dense (fun k => max (GNN.pre3 (fun j => x0 (ix2 r j)) (fun j => x1 (ix2 r j)) (fun j => x2 (ix2 r j))
            (fun j c => x3 (ix2 j c)) (fun j c => x4 (ix2 j c)) (fun j c => x5 (ix2 j c))
            (fun c => x6 (ix2 (0 : Fin 1) c)) k) 0)
          (fun j c => x7 (ix2 j c)) (fun c => x8 (ix2 (0 : Fin 1) c)) q := by
  unfold k0_pay4
  simp only [addf_apply, maximumf_apply, truncf_apply, mmE, biasE, shapeCast_self,
    broadcast_apply, scalar_zero, GNN.dense, GNN.pre3]

/-- Entry (r, q) of the updated-edge block: the edge perceptron of row r. -/
theorem edge_update (x0 x1 : FVec Ideal S4800x128 .bf16) (x2 : FVec Ideal S4800x128 .f32)
    (x3 x4 x5 : FVec Ideal S128x128 .f32) (x6 : FVec Ideal S1x128 .f32) (x7 : FVec Ideal S128x128 .f32)
    (x8 : FVec Ideal S1x128 .f32) (x9 : FVec Ideal S128x128 .f32) (x10 : FVec Ideal S1x128 .f32)
    (r : Fin 4800) (q : Fin 128) :
    k0_pay1 (F := Ideal) (k0_pay4 x0 x1 x2 x3 x4 x5 x6 x7 x8) (k0_pay5 (F := Ideal)) x9 x10 (ix2 r q)
      = GNN.tail (GNN.pre3 (fun j => x0 (ix2 r j)) (fun j => x1 (ix2 r j)) (fun j => x2 (ix2 r j))
            (fun j c => x3 (ix2 j c)) (fun j c => x4 (ix2 j c)) (fun j c => x5 (ix2 j c))
            (fun c => x6 (ix2 (0 : Fin 1) c)))
          (fun j c => x7 (ix2 j c)) (fun c => x8 (ix2 (0 : Fin 1) c))
          (fun j c => x9 (ix2 j c)) (fun c => x10 (ix2 (0 : Fin 1) c)) q := by
  unfold k0_pay1 k0_pay5
  simp only [addf_apply, maximumf_apply, truncf_apply, mmE, biasE, shapeCast_self,
    broadcast_apply, scalar_zero, edge_hidden, GNN.tail, GNN.dense]

end Cert.KernelIdeal.KVal

end
-- ==== Proof.SpecArr.lean ====
/-
  The block's two results as whole arrays, entry by entry, over the literal shapes of this problem: 600000 edges and
  100000 nodes of 128 features.

  The updated edge array at (p, q) is the edge perceptron of row p of the gathered sender array, the gathered receiver
  array and the edge array, with the 384-row first weight read in its three 128-row parts (rows k, 128 + k, 256 + k).
  The new edge array adds the edge's own entry.  The new node array at (n, q) is the node perceptron of row n of the
  node array and the aggregate array, with the 256-row first weight read in its two 128-row parts, plus the node's own
  entry.
-/
import Idealize.ShloMosaic.Lib.ValueIdx
import proofs.«138255_j73684458930837_2_alg».proof.Proof.Spec

noncomputable section

open scoped BigOperators

namespace GNN

open Idealize.ShloMosaic Idealize.ShloMosaic.ValueIdx

/-- Entry (p, q) of the updated edge array. -/
def edgeAt (sf rf ef : (⟨2, ![600000, 128]⟩ : Shape).Idx → EReal) (We1 : (⟨2, ![384, 128]⟩ : Shape).Idx → EReal)
    (be1 : (⟨1, ![128]⟩ : Shape).Idx → EReal) (We2 : (⟨2, ![128, 128]⟩ : Shape).Idx → EReal)
    (be2 : (⟨1, ![128]⟩ : Shape).Idx → EReal) (We3 : (⟨2, ![128, 128]⟩ : Shape).Idx → EReal)
    (be3 : (⟨1, ![128]⟩ : Shape).Idx → EReal) (p : Fin 600000) (q : Fin 128) : EReal :=
  tail (pre3 (fun j => sf (ix2 p j)) (fun j => rf (ix2 p j)) (fun j => ef (ix2 p j))
      (fun j c => We1 (ix2 (⟨j.val, by omega⟩ : Fin 384) c))
      (fun j c => We1 (ix2 (⟨128 + j.val, by omega⟩ : Fin 384) c))
      (fun j c => We1 (ix2 (⟨256 + j.val, by omega⟩ : Fin 384) c))
      (fun c => be1 (ix1 c)))
    (fun j c => We2 (ix2 j c)) (fun c => be2 (ix1 c)) (fun j c => We3 (ix2 j c)) (fun c => be3 (ix1 c)) q

/-- The updated edge array. -/
def edgeArr (sf rf ef : (⟨2, ![600000, 128]⟩ : Shape).Idx → EReal) (We1 : (⟨2, ![384, 128]⟩ : Shape).Idx → EReal)
    (be1 : (⟨1, ![128]⟩ : Shape).Idx → EReal) (We2 : (⟨2, ![128, 128]⟩ : Shape).Idx → EReal)
    (be2 : (⟨1, ![128]⟩ : Shape).Idx → EReal) (We3 : (⟨2, ![128, 128]⟩ : Shape).Idx → EReal)
    (be3 : (⟨1, ![128]⟩ : Shape).Idx → EReal) : (⟨2, ![600000, 128]⟩ : Shape).Idx → EReal :=
  fun i => edgeAt sf rf ef We1 be1 We2 be2 We3 be3 (i 0) (i 1)

/-- The new edge array: the update plus the edge's own entry. -/
def newEdges (sf rf ef : (⟨2, ![600000, 128]⟩ : Shape).Idx → EReal) (We1 : (⟨2, ![384, 128]⟩ : Shape).Idx → EReal)
    (be1 : (⟨1, ![128]⟩ : Shape).Idx → EReal) (We2 : (⟨2, ![128, 128]⟩ : Shape).Idx → EReal)
    (be2 : (⟨1, ![128]⟩ : Shape).Idx → EReal) (We3 : (⟨2, ![128, 128]⟩ : Shape).Idx → EReal)
    (be3 : (⟨1, ![128]⟩ : Shape).Idx → EReal) : (⟨2, ![600000, 128]⟩ : Shape).Idx → EReal :=
  fun i => edgeAt sf rf ef We1 be1 We2 be2 We3 be3 (i 0) (i 1) + ef i

/-- Entry (n, q) of the node update. -/
def nodeAt (nf ag : (⟨2, ![100000, 128]⟩ : Shape).Idx → EReal) (Wn1 : (⟨2, ![256, 128]⟩ : Shape).Idx → EReal)
    (bn1 : (⟨1, ![128]⟩ : Shape).Idx → EReal) (Wn2 : (⟨2, ![128, 128]⟩ : Shape).Idx → EReal)
    (bn2 : (⟨1, ![128]⟩ : Shape).Idx → EReal) (Wn3 : (⟨2, ![128, 128]⟩ : Shape).Idx → EReal)
    (bn3 : (⟨1, ![128]⟩ : Shape).Idx → EReal) (n : Fin 100000) (q : Fin 128) : EReal :=
  tail (pre2 (fun j => nf (ix2 n j)) (fun j => ag (ix2 n j))
      (fun j c => Wn1 (ix2 (⟨j.val, by omega⟩ : Fin 256) c))
      (fun j c => Wn1 (ix2 (⟨128 + j.val, by omega⟩ : Fin 256) c))
      (fun c => bn1 (ix1 c)))
    (fun j c => Wn2 (ix2 j c)) (fun c => bn2 (ix1 c)) (fun j c => Wn3 (ix2 j c)) (fun c => bn3 (ix1 c)) q

/-- The new node array: the update plus the node's own entry. -/
def newNodes (nf ag : (⟨2, ![100000, 128]⟩ : Shape).Idx → EReal) (Wn1 : (⟨2, ![256, 128]⟩ : Shape).Idx → EReal)
    (bn1 : (⟨1, ![128]⟩ : Shape).Idx → EReal) (Wn2 : (⟨2, ![128, 128]⟩ : Shape).Idx → EReal)
    (bn2 : (⟨1, ![128]⟩ : Shape).Idx → EReal) (Wn3 : (⟨2, ![128, 128]⟩ : Shape).Idx → EReal)
    (bn3 : (⟨1, ![128]⟩ : Shape).Idx → EReal) : (⟨2, ![100000, 128]⟩ : Shape).Idx → EReal :=
  fun i => nodeAt nf ag Wn1 bn1 Wn2 bn2 Wn3 bn3 (i 0) (i 1) + nf i

end GNN

end
-- ==== Proof.KEdgeArr.lean ====
/-
  The edge region's two output arrays as whole-array functions of the arrays the region finds when it is entered.

  The grid has 125 points; at point t every row window (the gathered sender rows, the gathered receiver rows, the edge
  rows, and both outputs) holds rows 4800·t … 4800·t + 4799 of its array, and every weight and bias window holds its
  whole array.  The body computes each row of its output block from the same row of its input blocks, so what point t
  writes back is block t of ONE function of the whole arrays: the edge perceptron row by row.  The 125 blocks cover the
  600000 rows, so after the region each output array is that function.  The three 128-row parts of the first weight and
  the three one-row biases reach the region through host operations; they are taken here as hypotheses on the entry
  contents (each part read at (j, c) is the 384-row weight at (j, c), (128 + j, c), (256 + j, c); each one-row bias
  read at (0, c) is the bias at c).
-/
import proofs.«138255_j73684458930837_2_alg».proof.Proof.Gen.KernelIdeal.Frame
import proofs.«138255_j73684458930837_2_alg».proof.Proof.KEdgeBody
import proofs.«138255_j73684458930837_2_alg».proof.Proof.SpecArr

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- A grid point's number is below 125. -/
theorem pt_lt0 (t : Fin cfg0.N) : t.val < 125 :=
  lt_of_lt_of_eq t.isLt (show cfg0.N = 125 from N_0)

/-- The array row under row `r` of the block at point `t`. -/
def row0 (t : Fin cfg0.N) (r : Fin 4800) : Fin 600000 := ⟨4800 * t.val + r.val, by have := pt_lt0 t; have := r.isLt; omega⟩

/-- Window 0's block index at a point: the point's number along the rows, zero along the columns. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at a point: the point's number along the rows, zero along the columns. -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2's block index at a point: the point's number along the rows, zero along the columns. -/
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Window 11's block index at a point: the point's number along the rows, zero along the columns. -/
theorem idx0_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Window 12's block index at a point: the point's number along the rows, zero along the columns. -/
theorem idx0_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
/-- Window 3's block is its whole array at every point. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block is its whole array at every point. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block is its whole array at every point. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block is its whole array at every point. -/
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block is its whole array at every point. -/
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block is its whole array at every point. -/
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block is its whole array at every point. -/
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block is its whole array at every point. -/
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Row `r` of window 0's block at point `t` sits in the array at row `4800 · t + r`. -/
theorem emb0_0 (t : Fin cfg0.N) (r : Fin 4800) (k : Fin 128) :
    ((cfg0.win 0).blk t).view.emb (ix2 r k) = ix2 (row0 t r) k := by
  funext a; apply Fin.ext
  match a with
  | ⟨0, _⟩ => show win0_0.index t (0 : Fin 2) * 4800 + 1 * r.val = 4800 * t.val + r.val; rw [(idx0_0 t).1]; omega
  | ⟨1, _⟩ => show win0_0.index t (1 : Fin 2) * 128 + 1 * k.val = k.val; rw [(idx0_0 t).2]; omega
/-- Row `r` of window 1's block at point `t` sits in the array at row `4800 · t + r`. -/
theorem emb0_1 (t : Fin cfg0.N) (r : Fin 4800) (k : Fin 128) :
    ((cfg0.win 1).blk t).view.emb (ix2 r k) = ix2 (row0 t r) k := by
  funext a; apply Fin.ext
  match a with
  | ⟨0, _⟩ => show win0_1.index t (0 : Fin 2) * 4800 + 1 * r.val = 4800 * t.val + r.val; rw [(idx0_1 t).1]; omega
  | ⟨1, _⟩ => show win0_1.index t (1 : Fin 2) * 128 + 1 * k.val = k.val; rw [(idx0_1 t).2]; omega
/-- Row `r` of window 2's block at point `t` sits in the array at row `4800 · t + r`. -/
theorem emb0_2 (t : Fin cfg0.N) (r : Fin 4800) (k : Fin 128) :
    ((cfg0.win 2).blk t).view.emb (ix2 r k) = ix2 (row0 t r) k := by
  funext a; apply Fin.ext
  match a with
  | ⟨0, _⟩ => show win0_2.index t (0 : Fin 2) * 4800 + 1 * r.val = 4800 * t.val + r.val; rw [(idx0_2 t).1]; omega
  | ⟨1, _⟩ => show win0_2.index t (1 : Fin 2) * 128 + 1 * k.val = k.val; rw [(idx0_2 t).2]; omega
/-- Row `r` of window 11's block at point `t` sits in the array at row `4800 · t + r`. -/
theorem emb0_11 (t : Fin cfg0.N) (r : Fin 4800) (k : Fin 128) :
    ((cfg0.win 11).blk t).view.emb (ix2 r k) = ix2 (row0 t r) k := by
  funext a; apply Fin.ext
  match a with
  | ⟨0, _⟩ => show win0_11.index t (0 : Fin 2) * 4800 + 1 * r.val = 4800 * t.val + r.val; rw [(idx0_11 t).1]; omega
  | ⟨1, _⟩ => show win0_11.index t (1 : Fin 2) * 128 + 1 * k.val = k.val; rw [(idx0_11 t).2]; omega
/-- Row `r` of window 12's block at point `t` sits in the array at row `4800 · t + r`. -/
theorem emb0_12 (t : Fin cfg0.N) (r : Fin 4800) (k : Fin 128) :
    ((cfg0.win 12).blk t).view.emb (ix2 r k) = ix2 (row0 t r) k := by
  funext a; apply Fin.ext
  match a with
  | ⟨0, _⟩ => show win0_12.index t (0 : Fin 2) * 4800 + 1 * r.val = 4800 * t.val + r.val; rw [(idx0_12 t).1]; omega
  | ⟨1, _⟩ => show win0_12.index t (1 : Fin 2) * 128 + 1 * k.val = k.val; rw [(idx0_12 t).2]; omega
/-- Window 0's block read at (r, k) is its array at (4800 · t + r, k). -/
theorem read0_0 (c : Dev nD) (t : Fin cfg0.N) (r : Fin 4800) (k : Fin 128) :
    iblk0 V c 0 t (ix2 r k) = V c main_v7 (ix2 (row0 t r) k) := by
  show V c main_v7 (((cfg0.win 0).blk t).view.emb (ix2 r k)) = _
  rw [emb0_0]
/-- Window 1's block read at (r, k) is its array at (4800 · t + r, k). -/
theorem read0_1 (c : Dev nD) (t : Fin cfg0.N) (r : Fin 4800) (k : Fin 128) :
    iblk0 V c 1 t (ix2 r k) = V c main_v14 (ix2 (row0 t r) k) := by
  show V c main_v14 (((cfg0.win 1).blk t).view.emb (ix2 r k)) = _
  rw [emb0_1]
/-- Window 2's block read at (r, k) is its array at (4800 · t + r, k). -/
theorem read0_2 (c : Dev nD) (t : Fin cfg0.N) (r : Fin 4800) (k : Fin 128) :
    iblk0 V c 2 t (ix2 r k) = V c main_arg1 (ix2 (row0 t r) k) := by
  show V c main_arg1 (((cfg0.win 2).blk t).view.emb (ix2 r k)) = _
  rw [emb0_2]
/-- Window 3's block is its whole array: read at (j, k) it is the array at (j, k). -/
theorem read0_3 (c : Dev nD) (t : Fin cfg0.N) (j : Fin 128) (k : Fin 128) :
    iblk0 V c 3 t (ix2 j k) = V c main_v15 (ix2 j k) := by
  show V c main_v15 (((cfg0.win 3).blk t).view.emb (ix2 j k)) = _
  refine congrArg (V c main_v15) ?_
  funext a; apply Fin.ext
  match a with
  | ⟨0, _⟩ => show win0_3.index t (0 : Fin 2) * 128 + 1 * j.val = j.val; rw [(idx0_3 t).1]; omega
  | ⟨1, _⟩ => show win0_3.index t (1 : Fin 2) * 128 + 1 * k.val = k.val; rw [(idx0_3 t).2]; omega
/-- Window 4's block is its whole array: read at (j, k) it is the array at (j, k). -/
theorem read0_4 (c : Dev nD) (t : Fin cfg0.N) (j : Fin 128) (k : Fin 128) :
    iblk0 V c 4 t (ix2 j k) = V c main_v16 (ix2 j k) := by
  show V c main_v16 (((cfg0.win 4).blk t).view.emb (ix2 j k)) = _
  refine congrArg (V c main_v16) ?_
  funext a; apply Fin.ext
  match a with
  | ⟨0, _⟩ => show win0_4.index t (0 : Fin 2) * 128 + 1 * j.val = j.val; rw [(idx0_4 t).1]; omega
  | ⟨1, _⟩ => show win0_4.index t (1 : Fin 2) * 128 + 1 * k.val = k.val; rw [(idx0_4 t).2]; omega
/-- Window 5's block is its whole array: read at (j, k) it is the array at (j, k). -/
theorem read0_5 (c : Dev nD) (t : Fin cfg0.N) (j : Fin 128) (k : Fin 128) :
    iblk0 V c 5 t (ix2 j k) = V c main_v17 (ix2 j k) := by
  show V c main_v17 (((cfg0.win 5).blk t).view.emb (ix2 j k)) = _
  refine congrArg (V c main_v17) ?_
  funext a; apply Fin.ext
  match a with
  | ⟨0, _⟩ => show win0_5.index t (0 : Fin 2) * 128 + 1 * j.val = j.val; rw [(idx0_5 t).1]; omega
  | ⟨1, _⟩ => show win0_5.index t (1 : Fin 2) * 128 + 1 * k.val = k.val; rw [(idx0_5 t).2]; omega
/-- Window 6's block is its whole array: read at (j, k) it is the array at (j, k). -/
theorem read0_6 (c : Dev nD) (t : Fin cfg0.N) (j : Fin 1) (k : Fin 128) :
    iblk0 V c 6 t (ix2 j k) = V c main_v18 (ix2 j k) := by
  show V c main_v18 (((cfg0.win 6).blk t).view.emb (ix2 j k)) = _
  refine congrArg (V c main_v18) ?_
  funext a; apply Fin.ext
  match a with
  | ⟨0, _⟩ => show win0_6.index t (0 : Fin 2) * 1 + 1 * j.val = j.val; rw [(idx0_6 t).1]; omega
  | ⟨1, _⟩ => show win0_6.index t (1 : Fin 2) * 128 + 1 * k.val = k.val; rw [(idx0_6 t).2]; omega
/-- Window 7's block is its whole array: read at (j, k) it is the array at (j, k). -/
theorem read0_7 (c : Dev nD) (t : Fin cfg0.N) (j : Fin 128) (k : Fin 128) :
    iblk0 V c 7 t (ix2 j k) = V c main_arg6 (ix2 j k) := by
  show V c main_arg6 (((cfg0.win 7).blk t).view.emb (ix2 j k)) = _
  refine congrArg (V c main_arg6) ?_
  funext a; apply Fin.ext
  match a with
  | ⟨0, _⟩ => show win0_7.index t (0 : Fin 2) * 128 + 1 * j.val = j.val; rw [(idx0_7 t).1]; omega
  | ⟨1, _⟩ => show win0_7.index t (1 : Fin 2) * 128 + 1 * k.val = k.val; rw [(idx0_7 t).2]; omega
/-- Window 8's block is its whole array: read at (j, k) it is the array at (j, k). -/
theorem read0_8 (c : Dev nD) (t : Fin cfg0.N) (j : Fin 1) (k : Fin 128) :
    iblk0 V c 8 t (ix2 j k) = V c main_v19 (ix2 j k) := by
  show V c main_v19 (((cfg0.win 8).blk t).view.emb (ix2 j k)) = _
  refine congrArg (V c main_v19) ?_
  funext a; apply Fin.ext
  match a with
  | ⟨0, _⟩ => show win0_8.index t (0 : Fin 2) * 1 + 1 * j.val = j.val; rw [(idx0_8 t).1]; omega
  | ⟨1, _⟩ => show win0_8.index t (1 : Fin 2) * 128 + 1 * k.val = k.val; rw [(idx0_8 t).2]; omega
/-- Window 9's block is its whole array: read at (j, k) it is the array at (j, k). -/
theorem read0_9 (c : Dev nD) (t : Fin cfg0.N) (j : Fin 128) (k : Fin 128) :
    iblk0 V c 9 t (ix2 j k) = V c main_arg8 (ix2 j k) := by
  show V c main_arg8 (((cfg0.win 9).blk t).view.emb (ix2 j k)) = _
  refine congrArg (V c main_arg8) ?_
  funext a; apply Fin.ext
  match a with
  | ⟨0, _⟩ => show win0_9.index t (0 : Fin 2) * 128 + 1 * j.val = j.val; rw [(idx0_9 t).1]; omega
  | ⟨1, _⟩ => show win0_9.index t (1 : Fin 2) * 128 + 1 * k.val = k.val; rw [(idx0_9 t).2]; omega
/-- Window 10's block is its whole array: read at (j, k) it is the array at (j, k). -/
theorem read0_10 (c : Dev nD) (t : Fin cfg0.N) (j : Fin 1) (k : Fin 128) :
    iblk0 V c 10 t (ix2 j k) = V c main_v20 (ix2 j k) := by
  show V c main_v20 (((cfg0.win 10).blk t).view.emb (ix2 j k)) = _
  refine congrArg (V c main_v20) ?_
  funext a; apply Fin.ext
  match a with
  | ⟨0, _⟩ => show win0_10.index t (0 : Fin 2) * 1 + 1 * j.val = j.val; rw [(idx0_10 t).1]; omega
  | ⟨1, _⟩ => show win0_10.index t (1 : Fin 2) * 128 + 1 * k.val = k.val; rw [(idx0_10 t).2]; omega

section Outputs

variable (c : Dev nD) (We1 : S384x128.Idx → EReal) (be1 be2 be3 : S128.Idx → EReal)
  (hA : ∀ (j k : Fin 128), V c main_v15 (ix2 j k) = We1 (ix2 (⟨j.val, by omega⟩ : Fin 384) k))
  (hB : ∀ (j k : Fin 128), V c main_v16 (ix2 j k) = We1 (ix2 (⟨128 + j.val, by omega⟩ : Fin 384) k))
  (hC : ∀ (j k : Fin 128), V c main_v17 (ix2 j k) = We1 (ix2 (⟨256 + j.val, by omega⟩ : Fin 384) k))
  (h1 : ∀ (k : Fin 128), V c main_v18 (ix2 (0 : Fin 1) k) = be1 (ix1 k))
  (h2 : ∀ (k : Fin 128), V c main_v19 (ix2 (0 : Fin 1) k) = be2 (ix1 k))
  (h3 : ∀ (k : Fin 128), V c main_v20 (ix2 (0 : Fin 1) k) = be3 (ix1 k))

include hA hB hC h1 h2 h3

/-- Entry (r, q) of the update the body computes at point `t` is the updated edge array's entry at row 4800·t + r. -/
theorem update_at (t : Fin cfg0.N) (r : Fin 4800) (q : Fin 128) :
    k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (F := Ideal)) (iblk0 V c 9 t) (iblk0 V c 10 t) (ix2 r q)
      = GNN.edgeAt (V c main_v7) (V c main_v14) (V c main_arg1) We1 be1 (V c main_arg6) be2 (V c main_arg8) be3 (row0 t r) q := by
  refine (edge_update (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) r q).trans ?_
  unfold GNN.edgeAt
  simp only [read0_0, read0_1, read0_2, read0_3, read0_4, read0_5, read0_6, read0_7, read0_8, read0_9, read0_10, hA, hB, hC, h1, h2, h3]

/-- What point `t` writes back into the update array is block `t` of the updated edge array. -/
theorem flushed12_eq (t : Fin cfg0.N) :
    (dat0 V c).flushed 12 t = ((cfg0.win 12).blk t).view.read (Elt Ideal)
      (GNN.edgeArr (V c main_v7) (V c main_v14) (V c main_arg1) We1 be1 (V c main_arg6) be2 (V c main_arg8) be3) := by
  show (cfg0.win 12).cut (grid0.coords t) ((dat0 V c).after 12 t) = _
  rw [after0_12]
  unfold out0_12
  rw [View.canon_unit_zero hz]
  simp only [View.ld_unit_zero (S := S4800x128) hz, View.ld_unit_zero (S := S128x128) hz, View.ld_unit_zero (S := S1x128) hz]
  funext j
  obtain ⟨r, q, rfl⟩ : ∃ (r : Fin 4800) (q : Fin 128), j = ix2 r q := ⟨j 0, j 1, eq_ix2 j⟩
  show k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (F := Ideal)) (iblk0 V c 9 t) (iblk0 V c 10 t) (ix2 r q)
    = GNN.edgeArr (V c main_v7) (V c main_v14) (V c main_arg1) We1 be1 (V c main_arg6) be2 (V c main_arg8) be3 (((cfg0.win 12).blk t).view.emb (ix2 r q))
  rw [emb0_12]
  exact update_at V c We1 be1 be2 be3 hA hB hC h1 h2 h3 t r q

/-- What point `t` writes back into the new edge array is block `t` of the new edge array. -/
theorem flushed11_eq (t : Fin cfg0.N) :
    (dat0 V c).flushed 11 t = ((cfg0.win 11).blk t).view.read (Elt Ideal)
      (GNN.newEdges (V c main_v7) (V c main_v14) (V c main_arg1) We1 be1 (V c main_arg6) be2 (V c main_arg8) be3) := by
  show (cfg0.win 11).cut (grid0.coords t) ((dat0 V c).after 11 t) = _
  rw [after0_11]
  unfold out0_11
  rw [View.canon_unit_zero hz]
  simp only [View.ld_unit_zero (S := S4800x128) hz, View.ld_unit_zero (S := S128x128) hz, View.ld_unit_zero (S := S1x128) hz]
  funext j
  obtain ⟨r, q, rfl⟩ : ∃ (r : Fin 4800) (q : Fin 128), j = ix2 r q := ⟨j 0, j 1, eq_ix2 j⟩
  show k0_pay1 (F := Ideal) (k0_pay4 (iblk0 V c 0 t) (iblk0 V c 1 t) (iblk0 V c 2 t) (iblk0 V c 3 t) (iblk0 V c 4 t) (iblk0 V c 5 t) (iblk0 V c 6 t) (iblk0 V c 7 t) (iblk0 V c 8 t)) (k0_pay5 (F := Ideal)) (iblk0 V c 9 t) (iblk0 V c 10 t) (ix2 r q) + iblk0 V c 2 t (ix2 r q)
    = GNN.newEdges (V c main_v7) (V c main_v14) (V c main_arg1) We1 be1 (V c main_arg6) be2 (V c main_arg8) be3 (((cfg0.win 11).blk t).view.emb (ix2 r q))
  rw [emb0_11, update_at V c We1 be1 be2 be3 hA hB hC h1 h2 h3 t r q, read0_2]
  rfl

omit hA hB hC h1 h2 h3 in
/-- An index of a 600000-row array is in the block at point `t` of an output window iff its row is among the block's. -/
theorem mem_blk12 (t : Fin cfg0.N) (i : S600000x128.Idx) :
    i ∈ ((cfg0.win 12).blk t).view.set ↔ ∀ a : Fin 2, win0_12.index t a * S4800x128.size a ≤ (i a).val ∧ (i a).val < win0_12.index t a * S4800x128.size a + S4800x128.size a := by
  show i ∈ ((View.whole main_v21_1).slice (win0_12.rect t)).set ↔ _
  rw [View.set_slice_whole, Rect.mem_set_unit]
  exact Iff.rfl

omit hA hB hC h1 h2 h3 in
theorem mem_blk11 (t : Fin cfg0.N) (i : S600000x128.Idx) :
    i ∈ ((cfg0.win 11).blk t).view.set ↔ ∀ a : Fin 2, win0_11.index t a * S4800x128.size a ≤ (i a).val ∧ (i a).val < win0_11.index t a * S4800x128.size a + S4800x128.size a := by
  show i ∈ ((View.whole main_v21_0).slice (win0_11.rect t)).set ↔ _
  rw [View.set_slice_whole, Rect.mem_set_unit]
  exact Iff.rfl

omit hA hB hC h1 h2 h3 in
/-- Every index of the update array is in the block of the point numbered its row divided by 4800. -/
theorem cover12 (i : S600000x128.Idx) : ∃ t : Fin cfg0.N, (cfg0.win 12).flush t = true ∧ i ∈ ((cfg0.win 12).blk t).view.set := by
  have hi0 : (i 0).val < 600000 := (i 0).isLt
  have hi1 : (i 1).val < 128 := (i 1).isLt
  let t : Fin cfg0.N := ⟨(i 0).val / 4800, by rw [show cfg0.N = 125 from N_0]; omega⟩
  have ht : t.val = (i 0).val / 4800 := rfl
  refine ⟨t, flush0_12 t, ?_⟩
  rw [mem_blk12]
  intro a
  match a with
  | ⟨0, _⟩ => show win0_12.index t (0 : Fin 2) * 4800 ≤ (i 0).val ∧ (i 0).val < win0_12.index t (0 : Fin 2) * 4800 + 4800; rw [(idx0_12 t).1]; omega
  | ⟨1, _⟩ => show win0_12.index t (1 : Fin 2) * 128 ≤ (i 1).val ∧ (i 1).val < win0_12.index t (1 : Fin 2) * 128 + 128; rw [(idx0_12 t).2]; omega

omit hA hB hC h1 h2 h3 in
theorem cover11 (i : S600000x128.Idx) : ∃ t : Fin cfg0.N, (cfg0.win 11).flush t = true ∧ i ∈ ((cfg0.win 11).blk t).view.set := by
  have hi0 : (i 0).val < 600000 := (i 0).isLt
  have hi1 : (i 1).val < 128 := (i 1).isLt
  let t : Fin cfg0.N := ⟨(i 0).val / 4800, by rw [show cfg0.N = 125 from N_0]; omega⟩
  have ht : t.val = (i 0).val / 4800 := rfl
  refine ⟨t, flush0_11 t, ?_⟩
  rw [mem_blk11]
  intro a
  match a with
  | ⟨0, _⟩ => show win0_11.index t (0 : Fin 2) * 4800 ≤ (i 0).val ∧ (i 0).val < win0_11.index t (0 : Fin 2) * 4800 + 4800; rw [(idx0_11 t).1]; omega
  | ⟨1, _⟩ => show win0_11.index t (1 : Fin 2) * 128 ≤ (i 1).val ∧ (i 1).val < win0_11.index t (1 : Fin 2) * 128 + 128; rw [(idx0_11 t).2]; omega

/-- After the region the update array is the updated edge array of the arrays the region found. -/
theorem final12 : (dat0 V c).arrAt 12 cfg0.N
    = GNN.edgeArr (V c main_v7) (V c main_v14) (V c main_arg1) We1 be1 (V c main_arg6) be2 (V c main_arg8) be3 :=
  (dat0 V c).arrAt_eq_of_cover 12 _ (fun t _ => flushed12_eq V c We1 be1 be2 be3 hA hB hC h1 h2 h3 t) cover12

/-- After the region the new edge array is the updated edge array plus the edge array, of the arrays the region found. -/
theorem final11 : (dat0 V c).arrAt 11 cfg0.N
    = GNN.newEdges (V c main_v7) (V c main_v14) (V c main_arg1) We1 be1 (V c main_arg6) be2 (V c main_arg8) be3 :=
  (dat0 V c).arrAt_eq_of_cover 11 _ (fun t _ => flushed11_eq V c We1 be1 be2 be3 hA hB hC h1 h2 h3 t) cover11

end Outputs

end Cert.KernelIdeal.KVal

end
-- ==== Proof.KNodeBody.lean ====
/-
  The node region's body, read at one entry.  At a grid point the body holds a block of 4000 node rows and the 4000
  aggregate rows of the same nodes, the two 128-row parts of the first weight, the two square weights and the three
  one-row biases.  Entry (r, q) of the block it stores is the node perceptron of row r alone — the two partial
  products added, the bias, max(·, 0), a dense layer, max(·, 0), a dense layer — plus the node's own entry.
-/
import proofs.«138255_j73684458930837_2_alg».proof.Proof.Gen.KernelIdeal.Skeleton
import proofs.«138255_j73684458930837_2_alg».proof.Proof.Spec
import proofs.«138255_j73684458930837_2_alg».proof.Proof.LibMatmulIx
import Idealize.ShloMosaic.Lib.ValueLayout
import Idealize.ShloMosaic.Lib.Pipeline.Value

noncomputable section

namespace Cert.KernelIdeal.KVal

open Idealize.ShloMosaic Idealize.ShloMosaic.ValueIdx Cert.KernelIdeal Cert.KernelIdeal.Gen
open scoped BigOperators

/-- The node body's contraction: rows of the left operand against rows of the right one. -/
abbrev dotN : DotDims S4000x128 S128x128 S4000x128 := dot_S4000x128_S128x128_S4000x128_1_0_0_1_n_n

theorem dotN_l0 (i : S4000x128.Idx) (q : dotN.contr.Idx) : (dotN.lhsIdx i q 0).val = (i 0).val := by
  unfold DotDims.lhsIdx
  rw [dif_neg (show ¬(0 : Fin S4000x128.rank) ∈ dotN.lhsBatch by decide), dif_pos (show (0 : Fin S4000x128.rank) ∈ dotN.lhsNonContracting by decide)]
  rfl
theorem dotN_l1 (i : S4000x128.Idx) (q : dotN.contr.Idx) : (dotN.lhsIdx i q 1).val = (q ⟨0, by decide⟩).val :=
  dotN.lhsIdx_val_of_single rfl i q
theorem dotN_r0 (i : S4000x128.Idx) (q : dotN.contr.Idx) : (dotN.rhsIdx i q 0).val = (q ⟨0, by decide⟩).val :=
  dotN.rhsIdx_val_of_single rfl i q
theorem dotN_r1 (i : S4000x128.Idx) (q : dotN.contr.Idx) : (dotN.rhsIdx i q 1).val = (i 1).val := by
  unfold DotDims.rhsIdx
  rw [dif_neg (show ¬(1 : Fin S128x128.rank) ∈ dotN.rhsBatch by decide), dif_pos (show (1 : Fin S128x128.rank) ∈ dotN.rhsNonContracting by decide)]
  rfl

/-- A 4000-row block times a 128 × 128 weight, accumulated into zero, at entry (r, q): the sum over the contracted
    column k of the block's (r, k) entry times the weight's (k, q) entry. -/
theorem mmN {φ₁ φ₂ : FTy} (x : FVec Ideal S4000x128 φ₁) (w : FVec Ideal S128x128 φ₂) (r : Fin 4000) (q : Fin 128) :
    matmul dot_S4000x128_S128x128_S4000x128_1_0_0_1_n_n none x w (constant (F := Ideal) S4000x128 .f32 0x00000000#32) (ix2 r q)
      = ∑ k : Fin 128, x (ix2 r k) * w (ix2 k q) :=
  MatmulIx.matmul_zero_ix2 dotN rfl rfl dotN_l0 dotN_l1 dotN_r0 dotN_r1 none x w r q

/-- The scalar unit's zero word is the extended real zero. -/
theorem scalar_zeroN : (Scalar.ofBits .f32 0x00000000#32 : Ideal .f32) = 0 := Ideal.ofBits_zero_f32

/-- A one-row bias spread over 4000 rows reads its one row. -/
theorem biasN (v : FVec Ideal S1x128 .f32) (r : Fin 4000) (q : Fin 128) :
    broadcastTo S4000x128 v broadcasts_S1x128_S4000x128 (ix2 r q) = v (ix2 (0 : Fin 1) q) :=
  broadcastTo_1b_ab_apply v broadcasts_S1x128_S4000x128 r q

/-- Entry (r, q) of the third layer's product, before its bias. -/
theorem node_product (x0 : FVec Ideal S4000x128 .f32) (x1 : FVec Ideal S4000x128 .bf16)
    (x2 x3 : FVec Ideal S128x128 .f32) (x4 : FVec Ideal S1x128 .f32) (x5 : FVec Ideal S128x128 .f32)
    (x6 : FVec Ideal S1x128 .f32) (x7 : FVec Ideal S128x128 .f32) (r : Fin 4000) (q : Fin 128) :
    k1_pay2 (F := Ideal) x0 x1 x2 x3 x4 x5 x6 x7 (ix2 r q)
      = ∑ k : Fin 128, max (GNN.dense (fun j => max (GNN.pre2 (fun i => x0 (ix2 r i)) (fun i => x1 (ix2 r i))
            (fun i c => x2 (ix2 i c)) (fun i c => x3 (ix2 i c)) (fun c => x4 (ix2 (0 : Fin 1) c)) j) 0)
          (fun i c => x5 (ix2 i c)) (fun c => x6 (ix2 (0 : Fin 1) c)) k) 0 * x7 (ix2 k q) := by
  unfold k1_pay2
  simp only [addf_apply, maximumf_apply, truncf_apply, mmN, biasN, shapeCast_self,
    broadcast_apply, scalar_zeroN, GNN.dense, GNN.pre2]

/-- Entry (r, q) of the block stored as the new nodes: the node perceptron of row r, plus the node's own entry. -/
theorem node_new (x0 : FVec Ideal S4000x128 .f32) (x1 : FVec Ideal S4000x128 .bf16)
    (x2 x3 : FVec Ideal S128x128 .f32) (x4 : FVec Ideal S1x128 .f32) (x5 : FVec Ideal S128x128 .f32)
    (x6 : FVec Ideal S1x128 .f32) (x7 : FVec Ideal S128x128 .f32) (x8 : FVec Ideal S1x128 .f32)
    (r : Fin 4000) (q : Fin 128) :
    k1_pay1 (F := Ideal) x0 (k1_pay2 x0 x1 x2 x3 x4 x5 x6 x7) (k1_pay3 x8) (ix2 r q)
      = GNN.tail (GNN.pre2 (fun i => x0 (ix2 r i)) (fun i => x1 (ix2 r i))
            (fun i c => x2 (ix2 i c)) (fun i c => x3 (ix2 i c)) (fun c => x4 (ix2 (0 : Fin 1) c)))
          (fun i c => x5 (ix2 i c)) (fun c => x6 (ix2 (0 : Fin 1) c))
          (fun i c => x7 (ix2 i c)) (fun c => x8 (ix2 (0 : Fin 1) c)) q + x0 (ix2 r q) := by
  unfold k1_pay1 k1_pay3
  simp only [addf_apply, biasN, shapeCast_self, node_product, GNN.tail, GNN.dense]

end Cert.KernelIdeal.KVal

end
-- ==== Proof.KNodeArr.lean ====
/-
  The node region's output array as a whole-array function of the arrays the region finds when it is entered.

  The grid has 25 points; at point t the node window, the aggregate window and the output hold rows 4000·t …
  4000·t + 3999 of their arrays, and every weight and bias window holds its whole array.  The body computes each row of
  its output block from the same row of its two input blocks, so what point t writes back is block t of ONE function of
  the whole arrays: the node perceptron row by row, plus the node's own entry.  The 25 blocks cover the 100000 rows.
  The two 128-row parts of the first weight and the three one-row biases reach the region through host operations; they
  are taken here as hypotheses on the entry contents.
-/
import proofs.«138255_j73684458930837_2_alg».proof.Proof.Gen.KernelIdeal.Frame
import proofs.«138255_j73684458930837_2_alg».proof.Proof.KNodeBody
import proofs.«138255_j73684458930837_2_alg».proof.Proof.SpecArr

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offset of a whole-block access. -/
theorem hzN : (![0, 0] : Fin 2 → Nat) = fun _ => 0 := funext fun a => by fin_cases a <;> rfl

/-- A grid point's number is below 25. -/
theorem pt_lt1 (t : Fin cfg1.N) : t.val < 25 :=
  lt_of_lt_of_eq t.isLt (show cfg1.N = 25 from N_1)

/-- The array row under row `r` of the block at point `t`. -/
def row1 (t : Fin cfg1.N) (r : Fin 4000) : Fin 100000 := ⟨4000 * t.val + r.val, by have := pt_lt1 t; have := r.isLt; omega⟩

/-- Window 0's block index at a point: the point's number along the rows, zero along the columns. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- Window 1's block index at a point: the point's number along the rows, zero along the columns. -/
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
/-- Window 9's block index at a point: the point's number along the rows, zero along the columns. -/
theorem idx1_9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
/-- Window 2's block is its whole array at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- Window 3's block is its whole array at every point. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- Window 4's block is its whole array at every point. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 5's block is its whole array at every point. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- Window 6's block is its whole array at every point. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
/-- Window 7's block is its whole array at every point. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
/-- Window 8's block is its whole array at every point. -/
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- Row `r` of window 0's block at point `t` sits in the array at row `4000 · t + r`. -/
theorem emb1_0 (t : Fin cfg1.N) (r : Fin 4000) (k : Fin 128) :
    ((cfg1.win 0).blk t).view.emb (ix2 r k) = ix2 (row1 t r) k := by
  funext a; apply Fin.ext
  match a with
  | ⟨0, _⟩ => show win1_0.index t (0 : Fin 2) * 4000 + 1 * r.val = 4000 * t.val + r.val; rw [(idx1_0 t).1]; omega
  | ⟨1, _⟩ => show win1_0.index t (1 : Fin 2) * 128 + 1 * k.val = k.val; rw [(idx1_0 t).2]; omega
/-- Row `r` of window 1's block at point `t` sits in the array at row `4000 · t + r`. -/
theorem emb1_1 (t : Fin cfg1.N) (r : Fin 4000) (k : Fin 128) :
    ((cfg1.win 1).blk t).view.emb (ix2 r k) = ix2 (row1 t r) k := by
  funext a; apply Fin.ext
  match a with
  | ⟨0, _⟩ => show win1_1.index t (0 : Fin 2) * 4000 + 1 * r.val = 4000 * t.val + r.val; rw [(idx1_1 t).1]; omega
  | ⟨1, _⟩ => show win1_1.index t (1 : Fin 2) * 128 + 1 * k.val = k.val; rw [(idx1_1 t).2]; omega
/-- Row `r` of window 9's block at point `t` sits in the array at row `4000 · t + r`. -/
theorem emb1_9 (t : Fin cfg1.N) (r : Fin 4000) (k : Fin 128) :
    ((cfg1.win 9).blk t).view.emb (ix2 r k) = ix2 (row1 t r) k := by
  funext a; apply Fin.ext
  match a with
  | ⟨0, _⟩ => show win1_9.index t (0 : Fin 2) * 4000 + 1 * r.val = 4000 * t.val + r.val; rw [(idx1_9 t).1]; omega
  | ⟨1, _⟩ => show win1_9.index t (1 : Fin 2) * 128 + 1 * k.val = k.val; rw [(idx1_9 t).2]; omega
/-- Window 0's block read at (r, k) is its array at (4000 · t + r, k). -/
theorem read1_0 (c : Dev nD) (t : Fin cfg1.N) (r : Fin 4000) (k : Fin 128) :
    iblk1 V c 0 t (ix2 r k) = V c main_arg0 (ix2 (row1 t r) k) := by
  show V c main_arg0 (((cfg1.win 0).blk t).view.emb (ix2 r k)) = _
  rw [emb1_0]
/-- Window 1's block read at (r, k) is its array at (4000 · t + r, k). -/
theorem read1_1 (c : Dev nD) (t : Fin cfg1.N) (r : Fin 4000) (k : Fin 128) :
    iblk1 V c 1 t (ix2 r k) = V c main_v26 (ix2 (row1 t r) k) := by
  show V c main_v26 (((cfg1.win 1).blk t).view.emb (ix2 r k)) = _
  rw [emb1_1]
/-- Window 2's block is its whole array: read at (j, k) it is the array at (j, k). -/
theorem read1_2 (c : Dev nD) (t : Fin cfg1.N) (j : Fin 128) (k : Fin 128) :
    iblk1 V c 2 t (ix2 j k) = V c main_v27 (ix2 j k) := by
  show V c main_v27 (((cfg1.win 2).blk t).view.emb (ix2 j k)) = _
  refine congrArg (V c main_v27) ?_
  funext a; apply Fin.ext
  match a with
  | ⟨0, _⟩ => show win1_2.index t (0 : Fin 2) * 128 + 1 * j.val = j.val; rw [(idx1_2 t).1]; omega
  | ⟨1, _⟩ => show win1_2.index t (1 : Fin 2) * 128 + 1 * k.val = k.val; rw [(idx1_2 t).2]; omega
/-- Window 3's block is its whole array: read at (j, k) it is the array at (j, k). -/
theorem read1_3 (c : Dev nD) (t : Fin cfg1.N) (j : Fin 128) (k : Fin 128) :
    iblk1 V c 3 t (ix2 j k) = V c main_v28 (ix2 j k) := by
  show V c main_v28 (((cfg1.win 3).blk t).view.emb (ix2 j k)) = _
  refine congrArg (V c main_v28) ?_
  funext a; apply Fin.ext
  match a with
  | ⟨0, _⟩ => show win1_3.index t (0 : Fin 2) * 128 + 1 * j.val = j.val; rw [(idx1_3 t).1]; omega
  | ⟨1, _⟩ => show win1_3.index t (1 : Fin 2) * 128 + 1 * k.val = k.val; rw [(idx1_3 t).2]; omega
/-- Window 4's block is its whole array: read at (j, k) it is the array at (j, k). -/
theorem read1_4 (c : Dev nD) (t : Fin cfg1.N) (j : Fin 1) (k : Fin 128) :
    iblk1 V c 4 t (ix2 j k) = V c main_v29 (ix2 j k) := by
  show V c main_v29 (((cfg1.win 4).blk t).view.emb (ix2 j k)) = _
  refine congrArg (V c main_v29) ?_
  funext a; apply Fin.ext
  match a with
  | ⟨0, _⟩ => show win1_4.index t (0 : Fin 2) * 1 + 1 * j.val = j.val; rw [(idx1_4 t).1]; omega
  | ⟨1, _⟩ => show win1_4.index t (1 : Fin 2) * 128 + 1 * k.val = k.val; rw [(idx1_4 t).2]; omega
/-- Window 5's block is its whole array: read at (j, k) it is the array at (j, k). -/
theorem read1_5 (c : Dev nD) (t : Fin cfg1.N) (j : Fin 128) (k : Fin 128) :
    iblk1 V c 5 t (ix2 j k) = V c main_arg12 (ix2 j k) := by
  show V c main_arg12 (((cfg1.win 5).blk t).view.emb (ix2 j k)) = _
  refine congrArg (V c main_arg12) ?_
  funext a; apply Fin.ext
  match a with
  | ⟨0, _⟩ => show win1_5.index t (0 : Fin 2) * 128 + 1 * j.val = j.val; rw [(idx1_5 t).1]; omega
  | ⟨1, _⟩ => show win1_5.index t (1 : Fin 2) * 128 + 1 * k.val = k.val; rw [(idx1_5 t).2]; omega
/-- Window 6's block is its whole array: read at (j, k) it is the array at (j, k). -/
theorem read1_6 (c : Dev nD) (t : Fin cfg1.N) (j : Fin 1) (k : Fin 128) :
    iblk1 V c 6 t (ix2 j k) = V c main_v30 (ix2 j k) := by
  show V c main_v30 (((cfg1.win 6).blk t).view.emb (ix2 j k)) = _
  refine congrArg (V c main_v30) ?_
  funext a; apply Fin.ext
  match a with
  | ⟨0, _⟩ => show win1_6.index t (0 : Fin 2) * 1 + 1 * j.val = j.val; rw [(idx1_6 t).1]; omega
  | ⟨1, _⟩ => show win1_6.index t (1 : Fin 2) * 128 + 1 * k.val = k.val; rw [(idx1_6 t).2]; omega
/-- Window 7's block is its whole array: read at (j, k) it is the array at (j, k). -/
theorem read1_7 (c : Dev nD) (t : Fin cfg1.N) (j : Fin 128) (k : Fin 128) :
    iblk1 V c 7 t (ix2 j k) = V c main_arg14 (ix2 j k) := by
  show V c main_arg14 (((cfg1.win 7).blk t).view.emb (ix2 j k)) = _
  refine congrArg (V c main_arg14) ?_
  funext a; apply Fin.ext
  match a with
  | ⟨0, _⟩ => show win1_7.index t (0 : Fin 2) * 128 + 1 * j.val = j.val; rw [(idx1_7 t).1]; omega
  | ⟨1, _⟩ => show win1_7.index t (1 : Fin 2) * 128 + 1 * k.val = k.val; rw [(idx1_7 t).2]; omega
/-- Window 8's block is its whole array: read at (j, k) it is the array at (j, k). -/
theorem read1_8 (c : Dev nD) (t : Fin cfg1.N) (j : Fin 1) (k : Fin 128) :
    iblk1 V c 8 t (ix2 j k) = V c main_v31 (ix2 j k) := by
  show V c main_v31 (((cfg1.win 8).blk t).view.emb (ix2 j k)) = _
  refine congrArg (V c main_v31) ?_
  funext a; apply Fin.ext
  match a with
  | ⟨0, _⟩ => show win1_8.index t (0 : Fin 2) * 1 + 1 * j.val = j.val; rw [(idx1_8 t).1]; omega
  | ⟨1, _⟩ => show win1_8.index t (1 : Fin 2) * 128 + 1 * k.val = k.val; rw [(idx1_8 t).2]; omega

section Outputs

variable (c : Dev nD) (Wn1 : S256x128.Idx → EReal) (bn1 bn2 bn3 : S128.Idx → EReal)
  (hA : ∀ (j k : Fin 128), V c main_v27 (ix2 j k) = Wn1 (ix2 (⟨j.val, by omega⟩ : Fin 256) k))
  (hB : ∀ (j k : Fin 128), V c main_v28 (ix2 j k) = Wn1 (ix2 (⟨128 + j.val, by omega⟩ : Fin 256) k))
  (h1 : ∀ (k : Fin 128), V c main_v29 (ix2 (0 : Fin 1) k) = bn1 (ix1 k))
  (h2 : ∀ (k : Fin 128), V c main_v30 (ix2 (0 : Fin 1) k) = bn2 (ix1 k))
  (h3 : ∀ (k : Fin 128), V c main_v31 (ix2 (0 : Fin 1) k) = bn3 (ix1 k))

include hA hB h1 h2 h3

/-- What point `t` writes back into the new node array is block `t` of the new node array. -/
theorem flushed9_eq (t : Fin cfg1.N) :
    (dat1 V c).flushed 9 t = ((cfg1.win 9).blk t).view.read (Elt Ideal)
      (GNN.newNodes (V c main_arg0) (V c main_v26) Wn1 bn1 (V c main_arg12) bn2 (V c main_arg14) bn3) := by
  show (cfg1.win 9).cut (grid1.coords t) ((dat1 V c).after 9 t) = _
  rw [after1_9]
  unfold out1_9
  rw [View.canon_unit_zero hzN]
  simp only [View.ld_unit_zero (S := S4000x128) hzN, View.ld_unit_zero (S := S128x128) hzN, View.ld_unit_zero (S := S1x128) hzN]
  funext j
  obtain ⟨r, q, rfl⟩ : ∃ (r : Fin 4000) (q : Fin 128), j = ix2 r q := ⟨j 0, j 1, eq_ix2 j⟩
  show k1_pay1 (F := Ideal) (iblk1 V c 0 t) (k1_pay2 (iblk1 V c 0 t) (iblk1 V c 1 t) (iblk1 V c 2 t) (iblk1 V c 3 t) (iblk1 V c 4 t) (iblk1 V c 5 t) (iblk1 V c 6 t) (iblk1 V c 7 t)) (k1_pay3 (iblk1 V c 8 t)) (ix2 r q)
    = GNN.newNodes (V c main_arg0) (V c main_v26) Wn1 bn1 (V c main_arg12) bn2 (V c main_arg14) bn3 (((cfg1.win 9).blk t).view.emb (ix2 r q))
  rw [emb1_9]
  refine (node_new (iblk1 V c 0 t) (iblk1 V c 1 t) (iblk1 V c 2 t) (iblk1 V c 3 t) (iblk1 V c 4 t) (iblk1 V c 5 t) (iblk1 V c 6 t) (iblk1 V c 7 t) (iblk1 V c 8 t) r q).trans ?_
  show _ = GNN.nodeAt (V c main_arg0) (V c main_v26) Wn1 bn1 (V c main_arg12) bn2 (V c main_arg14) bn3 (row1 t r) q + V c main_arg0 (ix2 (row1 t r) q)
  unfold GNN.nodeAt
  simp only [read1_0, read1_1, read1_2, read1_3, read1_4, read1_5, read1_6, read1_7, read1_8, hA, hB, h1, h2, h3]

omit hA hB h1 h2 h3 in
/-- An index of the 100000-row output is in the block at point `t` iff its row is among the block's. -/
theorem mem_blk9 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v32).slice (win1_9.rect t)).set ↔ _
  rw [View.set_slice_whole, Rect.mem_set_unit]
  exact Iff.rfl

omit hA hB h1 h2 h3 in
/-- Every index of the output is in the block of the point numbered its row divided by 4000. -/
theorem cover9 (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  let t : Fin cfg1.N := ⟨(i 0).val / 4000, by rw [show cfg1.N = 25 from N_1]; omega⟩
  have ht : t.val = (i 0).val / 4000 := rfl
  refine ⟨t, flush1_9 t, ?_⟩
  rw [mem_blk9]
  intro a
  match a with
  | ⟨0, _⟩ => show win1_9.index t (0 : Fin 2) * 4000 ≤ (i 0).val ∧ (i 0).val < win1_9.index t (0 : Fin 2) * 4000 + 4000; rw [(idx1_9 t).1]; omega
  | ⟨1, _⟩ => show win1_9.index t (1 : Fin 2) * 128 ≤ (i 1).val ∧ (i 1).val < win1_9.index t (1 : Fin 2) * 128 + 128; rw [(idx1_9 t).2]; omega

/-- After the region the output is the new node array of the arrays the region found. -/
theorem final9 : (dat1 V c).arrAt 9 cfg1.N
    = GNN.newNodes (V c main_arg0) (V c main_v26) Wn1 bn1 (V c main_arg12) bn2 (V c main_arg14) bn3 :=
  (dat1 V c).arrAt_eq_of_cover 9 _ (fun t _ => flushed9_eq V c Wn1 bn1 bn2 bn3 hA hB h1 h2 h3 t) cover9

end Outputs

end Cert.KernelIdeal.KVal

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.RefEdge.lean ====
/-
  The reference's edge stage, read at one entry.  The reference lays the gathered sender rows, the gathered receiver
  rows and the edge rows side by side into a 384-column array and multiplies it by the whole 384-row first weight.  Entry
  (p, q) of that product is a sum over 384 columns; it is the sum of its three 128-wide thirds, and on each third the
  side-by-side array is one of its three pieces.  That is the perceptron's first pre-activation with the weight read in
  three parts.  The remaining layers are dense layers and max(·, 0) entry by entry, so the reference's update array is
  the updated edge array of the two gathered arrays, the edge array and the weights.
-/
import proofs.«138255_j73684458930837_2_alg».proof.Proof.Gen.ReferenceIdeal.Read
import proofs.«138255_j73684458930837_2_alg».proof.Proof.SpecArr
import proofs.«138255_j73684458930837_2_alg».proof.Proof.LibMatmulIx

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open scoped BigOperators

/-- The 384-column product at (p, q) as a sum over the contracted column. -/
theorem dot384 (x : FVec Ideal S600000x384 .f32) (w : FVec Ideal S384x128 .f32) (p : Fin 600000) (q : Fin 128) :
    Host.dotGeneral dot_S600000x384_S384x128_S600000x128_1_0_0_1_n_n none x w (ix2 p q)
      = ∑ k : Fin 384, x (ix2 p k) * w (ix2 k q) :=
  MatmulIx.dotGeneral_ix2 dot_S600000x384_S384x128_S600000x128_1_0_0_1_n_n rfl rfl
    lhs_main_v15_0 lhs_main_v15_1 rhs_main_v15_0 rhs_main_v15_1 none x w p q

/-- A 128-column product over the edges at (p, q) as a sum over the contracted column. -/
theorem dotE128 (x : FVec Ideal S600000x128 .f32) (w : FVec Ideal S128x128 .f32) (p : Fin 600000) (q : Fin 128) :
    Host.dotGeneral dot_S600000x128_S128x128_S600000x128_1_0_0_1_n_n none x w (ix2 p q)
      = ∑ k : Fin 128, x (ix2 p k) * w (ix2 k q) :=
  MatmulIx.dotGeneral_ix2 dot_S600000x128_S128x128_S600000x128_1_0_0_1_n_n rfl rfl
    lhs_main_v20_0 lhs_main_v20_1 rhs_main_v20_0 rhs_main_v20_1 none x w p q

/-- Three 128-column arrays laid side by side, read in the first third: the first array. -/
theorem cat3_first (g1 g2 g3 : S600000x128.Idx → EReal) (p : Fin 600000) (k : Fin 128) :
    concatenate S600000x384 1 [⟨S600000x128, g1⟩, ⟨S600000x128, g2⟩, ⟨S600000x128, g3⟩]
        concatenates_S600000x128_S600000x128_S600000x128_S600000x384_d1 (ix2 p (⟨k.val, by omega⟩ : Fin 384))
      = g1 (ix2 p k) :=
  concatenate_apply_piece (1 : Fin S600000x384.rank) _ _ _ 0 (by show (0 : ℕ) < 3; omega) S600000x128 g1 rfl rfl 0 rfl (ix2 p k)
    (fun b hb => by match b with | ⟨0, _⟩ => rfl | ⟨1, _⟩ => exact absurd rfl hb) (by show 0 + k.val = k.val; omega)

/-- … in the second third: the second array. -/
theorem cat3_second (g1 g2 g3 : S600000x128.Idx → EReal) (p : Fin 600000) (k : Fin 128) :
    concatenate S600000x384 1 [⟨S600000x128, g1⟩, ⟨S600000x128, g2⟩, ⟨S600000x128, g3⟩]
        concatenates_S600000x128_S600000x128_S600000x128_S600000x384_d1 (ix2 p (⟨128 + k.val, by omega⟩ : Fin 384))
      = g2 (ix2 p k) :=
  concatenate_apply_piece (1 : Fin S600000x384.rank) _ _ _ 1 (by show (1 : ℕ) < 3; omega) S600000x128 g2 rfl rfl 128 rfl (ix2 p k)
    (fun b hb => by match b with | ⟨0, _⟩ => rfl | ⟨1, _⟩ => exact absurd rfl hb) rfl

/-- … in the last third: the third array. -/
theorem cat3_third (g1 g2 g3 : S600000x128.Idx → EReal) (p : Fin 600000) (k : Fin 128) :
    concatenate S600000x384 1 [⟨S600000x128, g1⟩, ⟨S600000x128, g2⟩, ⟨S600000x128, g3⟩]
        concatenates_S600000x128_S600000x128_S600000x128_S600000x384_d1 (ix2 p (⟨256 + k.val, by omega⟩ : Fin 384))
      = g3 (ix2 p k) :=
  concatenate_apply_piece (1 : Fin S600000x384.rank) _ _ _ 2 (by show (2 : ℕ) < 3; omega) S600000x128 g3 rfl rfl 256 rfl (ix2 p k)
    (fun b hb => by match b with | ⟨0, _⟩ => rfl | ⟨1, _⟩ => exact absurd rfl hb) rfl

/-- A bias broadcast first to one row and then over all edge rows reads the bias at the column. -/
theorem bias_edges (h1 : S128.BroadcastsInDim S1x128 ![1]) (h2 : S1x128.BroadcastsInDim S600000x128 ![0, 1])
    (b : S128.Idx → EReal) (p : Fin 600000) (q : Fin 128) :
    broadcastInDim S600000x128 ![0, 1] h2 (broadcastInDim S1x128 ![1] h1 b) (ix2 p q) = b (ix1 q) := by
  refine (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ h1 b (ix2 (0 : Fin 1) q) (ix1 q) (fun a => match a with
    | ⟨0, _⟩ => by show q.val = if (128 : Nat) = 1 then 0 else q.val; rw [if_neg (by decide)])

/-- The one-row bias's column under entry (p, q) of the edge-shaped broadcast: column q. -/
theorem idx_bias21 (p : Fin 600000) (q : Fin 128) : idx_main_v21 (idx_main_v22 (ix2 p q)) = ix1 q :=
  funext fun a => Fin.ext (by match a with | ⟨0, _⟩ => rfl)
theorem idx_bias26 (p : Fin 600000) (q : Fin 128) : idx_main_v26 (idx_main_v27 (ix2 p q)) = ix1 q :=
  funext fun a => Fin.ext (by match a with | ⟨0, _⟩ => rfl)

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal))

/-- The first layer's pre-activation at (p, j): the three partial products and the bias. -/
theorem pre_edges (p : Fin 600000) (j : Fin 128) :
    val_main_v18 (F := Ideal) x0 x1 x2 x3 x4 x5 (ix2 p j)
      = GNN.pre3 (fun k => val_main_v6 (F := Ideal) x0 x2 (ix2 p k)) (fun k => val_main_v13 (F := Ideal) x0 x3 (ix2 p k))
          (fun k => x1 (ix2 p k))
          (fun k c => x4 (ix2 (⟨k.val, by omega⟩ : Fin 384) c)) (fun k c => x4 (ix2 (⟨128 + k.val, by omega⟩ : Fin 384) c))
          (fun k c => x4 (ix2 (⟨256 + k.val, by omega⟩ : Fin 384) c)) (fun c => x5 (ix1 c)) j := by
  unfold val_main_v18 val_main_v15 val_main_v14 val_main_v17 val_main_v16 GNN.pre3
  rw [addf_apply, dot384, bias_edges, GNN.sum_thirds]
  simp only [cat3_first, cat3_second, cat3_third]

/-- The reference's update array is the updated edge array of the gathered arrays, the edge array and the weights. -/
theorem update_edges :
    val_main_v28 (F := Ideal) x0 x1 x2 x3 x4 x5 x6 x7 x8 x9
      = GNN.edgeArr (val_main_v6 (F := Ideal) x0 x2) (val_main_v13 (F := Ideal) x0 x3) x1 x4 x5 x6 x7 x8 x9 := by
  funext i
  obtain ⟨p, q, rfl⟩ : ∃ (p : Fin 600000) (q : Fin 128), i = ix2 p q := ⟨i 0, i 1, eq_ix2 i⟩
  show _ = GNN.edgeAt (val_main_v6 (F := Ideal) x0 x2) (val_main_v13 (F := Ideal) x0 x3) x1 x4 x5 x6 x7 x8 x9 p q
  unfold GNN.edgeAt GNN.tail GNN.dense
  simp only [val_main_v28_apply, val_main_v27_apply, val_main_v26_apply, val_main_v25, val_main_v24_apply,
    val_main_call1_v0_apply, val_main_call1_cst_apply, val_main_v23_apply, val_main_v22_apply, val_main_v21_apply,
    val_main_v20, val_main_v19_apply, val_main_call0_v0_apply, val_main_call0_cst_apply,
    Ideal.addf_def, Ideal.maximumf_def, Ideal.ofBits_def, Ideal.ofBits_zero_f32, dotE128, idx_bias21, idx_bias26, pre_edges]

end Cert.ReferenceIdeal.RefValue

end
-- ==== Proof.KHost.lean ====
/-
  The host side of the kernel program, read stretch by stretch, and with it the program's two results as functions of
  the sixteen launch arrays.

  Before the edge region the host gathers the sender rows and the receiver rows of the node array (after the format
  change that is the identity here), cuts the 384-row first weight into its three 128-row parts and gives the three
  biases a leading unit axis; it writes no argument.  So the region finds: the two gathered arrays — the very terms the
  reference forms —, the edge array, parts that read at (j, c) the weight at (j, c), (128 + j, c), (256 + j, c), and
  one-row biases that read at (0, c) the bias at c.  After the region its update array is therefore the updated edge
  array of the launch arrays and its other output the new edge array.

  Between the regions the host scatter-adds the update array's rows into a zero array by receiver — the reference's
  aggregation term once the update arrays agree —, cuts the 256-row weight in two and reshapes the three biases.  So
  the node region finds the node array, that aggregate, and the parts; after it the output is the new node array of the
  launch arrays.  The new edge array is touched by nothing after the edge region.
-/
import proofs.«138255_j73684458930837_2_alg».proof.Proof.Gen.KernelIdeal.Frame
import proofs.«138255_j73684458930837_2_alg».proof.Proof.KEdgeArr
import proofs.«138255_j73684458930837_2_alg».proof.Proof.KNodeArr
import proofs.«138255_j73684458930837_2_alg».proof.Proof.LibStretch
import proofs.«138255_j73684458930837_2_alg».proof.Proof.Gen.ReferenceIdeal.Read
import proofs.«138255_j73684458930837_2_alg».proof.Proof.RefEdge
import Idealize.ShloMosaic.Lib.ValueLayout

set_option maxRecDepth 16384

noncomputable section

namespace Cert.KernelIdeal.KVal

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

open Idealize.ShloMosaic.StableHlo

variable (m : (ℓ : Loc nD τ sig) → Buf (Elt Ideal) ℓ) (ρ : Dev nD → PrngReg) (c : Dev nD)

/-! ## The first stretch writes no argument -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
theorem W1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0
theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten hostOps0
theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  unwritten hostOps0
theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  unwritten hostOps0
theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  unwritten hostOps0
theorem W1_arg12 : W1 m ρ c (Proc.devRef .tc main_arg12) = m ((c : Thread nD τ).loc main_arg12) := by
  show StableHlo.after hostOps0 (W0 m ρ c) (Proc.devRef .tc main_arg12) = W0 m ρ c (Proc.devRef .tc main_arg12)
  unwritten hostOps0
theorem W1_arg13 : W1 m ρ c (Proc.devRef .tc main_arg13) = m ((c : Thread nD τ).loc main_arg13) := by
  show StableHlo.after hostOps0 (W0 m ρ c) (Proc.devRef .tc main_arg13) = W0 m ρ c (Proc.devRef .tc main_arg13)
  unwritten hostOps0
theorem W1_arg14 : W1 m ρ c (Proc.devRef .tc main_arg14) = m ((c : Thread nD τ).loc main_arg14) := by
  show StableHlo.after hostOps0 (W0 m ρ c) (Proc.devRef .tc main_arg14) = W0 m ρ c (Proc.devRef .tc main_arg14)
  unwritten hostOps0
theorem W1_arg15 : W1 m ρ c (Proc.devRef .tc main_arg15) = m ((c : Thread nD τ).loc main_arg15) := by
  show StableHlo.after hostOps0 (W0 m ρ c) (Proc.devRef .tc main_arg15) = W0 m ρ c (Proc.devRef .tc main_arg15)
  unwritten hostOps0

/-! ## What the edge region finds -/

/-- The gathered sender rows are the reference's gathered sender rows. -/
theorem V1_v7 : V1 m ρ c main_v7 = (Cert.ReferenceIdeal.Read.val_main_v6 (F := Ideal) (m ((c : Thread nD τ).loc main_arg0)) (m ((c : Thread nD τ).loc main_arg2))) := by
  show StableHlo.after hostOps0 (W0 m ρ c) (Proc.devRef .tc main_v7) = _
  after_results_simp
  rfl

/-- The gathered receiver rows are the reference's gathered receiver rows. -/
theorem V1_v14 : V1 m ρ c main_v14 = (Cert.ReferenceIdeal.Read.val_main_v13 (F := Ideal) (m ((c : Thread nD τ).loc main_arg0)) (m ((c : Thread nD τ).loc main_arg3))) := by
  show StableHlo.after hostOps0 (W0 m ρ c) (Proc.devRef .tc main_v14) = _
  after_results_simp
  rfl

/-- Part 1 of the first weight read at (j, k) is the weight at (j, k). -/
theorem V1_v15 (j k : Fin 128) : V1 m ρ c main_v15 (ix2 j k) = (m ((c : Thread nD τ).loc main_arg4)) (ix2 (⟨j.val, by omega⟩ : Fin 384) k) := by
  have e : W1 m ρ c (Proc.devRef .tc main_v15)
      = extractStridedSlice S128x128 ![0, 0] (W0 m ρ c (Proc.devRef .tc main_arg4)) slices_S384x128_S128x128_0_0 := by
    show StableHlo.after hostOps0 (W0 m ρ c) (Proc.devRef .tc main_v15) = _
    after_results_simp
  show W1 m ρ c (Proc.devRef .tc main_v15) (ix2 j k) = _
  rw [e]
  exact slice2_axis0_apply 0 (W0 m ρ c (Proc.devRef .tc main_arg4)) slices_S384x128_S128x128_0_0 j k ⟨j.val, by omega⟩ (by show j.val = 0 + j.val; omega)

/-- Part 2 of the first weight read at (j, k) is the weight at (128 + j, k). -/
theorem V1_v16 (j k : Fin 128) : V1 m ρ c main_v16 (ix2 j k) = (m ((c : Thread nD τ).loc main_arg4)) (ix2 (⟨128 + j.val, by omega⟩ : Fin 384) k) := by
  have e : W1 m ρ c (Proc.devRef .tc main_v16)
      = extractStridedSlice S128x128 ![128, 0] (W0 m ρ c (Proc.devRef .tc main_arg4)) slices_S384x128_S128x128_128_0 := by
    show StableHlo.after hostOps0 (W0 m ρ c) (Proc.devRef .tc main_v16) = _
    after_results_simp
  show W1 m ρ c (Proc.devRef .tc main_v16) (ix2 j k) = _
  rw [e]
  exact slice2_axis0_apply 128 (W0 m ρ c (Proc.devRef .tc main_arg4)) slices_S384x128_S128x128_128_0 j k ⟨128 + j.val, by omega⟩ rfl

/-- Part 3 of the first weight read at (j, k) is the weight at (256 + j, k). -/
theorem V1_v17 (j k : Fin 128) : V1 m ρ c main_v17 (ix2 j k) = (m ((c : Thread nD τ).loc main_arg4)) (ix2 (⟨256 + j.val, by omega⟩ : Fin 384) k) := by
  have e : W1 m ρ c (Proc.devRef .tc main_v17)
      = extractStridedSlice S128x128 ![256, 0] (W0 m ρ c (Proc.devRef .tc main_arg4)) slices_S384x128_S128x128_256_0 := by
    show StableHlo.after hostOps0 (W0 m ρ c) (Proc.devRef .tc main_v17) = _
    after_results_simp
  show W1 m ρ c (Proc.devRef .tc main_v17) (ix2 j k) = _
  rw [e]
  exact slice2_axis0_apply 256 (W0 m ρ c (Proc.devRef .tc main_arg4)) slices_S384x128_S128x128_256_0 j k ⟨256 + j.val, by omega⟩ rfl

/-- The bias with a leading unit axis reads at (0, k) the bias at k. -/
theorem V1_v18 (k : Fin 128) : V1 m ρ c main_v18 (ix2 (0 : Fin 1) k) = (m ((c : Thread nD τ).loc main_arg5)) (ix1 k) := by
  have e : W1 m ρ c (Proc.devRef .tc main_v18)
      = shapeCast S1x128 (W0 m ρ c (Proc.devRef .tc main_arg5)) shapeCasts_S128_S1x128 := by
    show StableHlo.after hostOps0 (W0 m ρ c) (Proc.devRef .tc main_v18) = _
    after_results_simp
    rfl
  show W1 m ρ c (Proc.devRef .tc main_v18) (ix2 (0 : Fin 1) k) = _
  rw [e]
  exact shapeCast_a_1a_apply (W0 m ρ c (Proc.devRef .tc main_arg5)) shapeCasts_S128_S1x128 0 k

/-- The bias with a leading unit axis reads at (0, k) the bias at k. -/
theorem V1_v19 (k : Fin 128) : V1 m ρ c main_v19 (ix2 (0 : Fin 1) k) = (m ((c : Thread nD τ).loc main_arg7)) (ix1 k) := by
  have e : W1 m ρ c (Proc.devRef .tc main_v19)
      = shapeCast S1x128 (W0 m ρ c (Proc.devRef .tc main_arg7)) shapeCasts_S128_S1x128 := by
    show StableHlo.after hostOps0 (W0 m ρ c) (Proc.devRef .tc main_v19) = _
    after_results_simp
    rfl
  show W1 m ρ c (Proc.devRef .tc main_v19) (ix2 (0 : Fin 1) k) = _
  rw [e]
  exact shapeCast_a_1a_apply (W0 m ρ c (Proc.devRef .tc main_arg7)) shapeCasts_S128_S1x128 0 k

/-- The bias with a leading unit axis reads at (0, k) the bias at k. -/
theorem V1_v20 (k : Fin 128) : V1 m ρ c main_v20 (ix2 (0 : Fin 1) k) = (m ((c : Thread nD τ).loc main_arg9)) (ix1 k) := by
  have e : W1 m ρ c (Proc.devRef .tc main_v20)
      = shapeCast S1x128 (W0 m ρ c (Proc.devRef .tc main_arg9)) shapeCasts_S128_S1x128 := by
    show StableHlo.after hostOps0 (W0 m ρ c) (Proc.devRef .tc main_v20) = _
    after_results_simp
    rfl
  show W1 m ρ c (Proc.devRef .tc main_v20) (ix2 (0 : Fin 1) k) = _
  rw [e]
  exact shapeCast_a_1a_apply (W0 m ρ c (Proc.devRef .tc main_arg9)) shapeCasts_S128_S1x128 0 k

/-! ## After the edge region -/

/-- The update array after the edge region: the updated edge array of the launch arrays. -/
theorem W2_update : W2 m ρ c (Proc.devRef .tc main_v21_1) = GNN.edgeArr (Cert.ReferenceIdeal.Read.val_main_v6 (F := Ideal) (m ((c : Thread nD τ).loc main_arg0)) (m ((c : Thread nD τ).loc main_arg2))) (Cert.ReferenceIdeal.Read.val_main_v13 (F := Ideal) (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 12).trans ((final12 (V1 m ρ) c (m ((c : Thread nD τ).loc main_arg4)) (m ((c : Thread nD τ).loc main_arg5)) (m ((c : Thread nD τ).loc main_arg7)) (m ((c : Thread nD τ).loc main_arg9)) (V1_v15 m ρ c) (V1_v16 m ρ c) (V1_v17 m ρ c) (V1_v18 m ρ c) (V1_v19 m ρ c) (V1_v20 m ρ c)).trans ?_)
  rw [V1_v7, V1_v14]
  show GNN.edgeArr _ _ (W1 m ρ c (Proc.devRef .tc main_arg1)) _ _ (W1 m ρ c (Proc.devRef .tc main_arg6)) _ (W1 m ρ c (Proc.devRef .tc main_arg8)) _ = _
  rw [W1_arg1, W1_arg6, W1_arg8]

/-- The new edge array after the edge region. -/
theorem W2_new_edges : W2 m ρ c (Proc.devRef .tc main_v21_0) = GNN.newEdges (Cert.ReferenceIdeal.Read.val_main_v6 (F := Ideal) (m ((c : Thread nD τ).loc main_arg0)) (m ((c : Thread nD τ).loc main_arg2))) (Cert.ReferenceIdeal.Read.val_main_v13 (F := Ideal) (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 11).trans ((final11 (V1 m ρ) c (m ((c : Thread nD τ).loc main_arg4)) (m ((c : Thread nD τ).loc main_arg5)) (m ((c : Thread nD τ).loc main_arg7)) (m ((c : Thread nD τ).loc main_arg9)) (V1_v15 m ρ c) (V1_v16 m ρ c) (V1_v17 m ρ c) (V1_v18 m ρ c) (V1_v19 m ρ c) (V1_v20 m ρ c)).trans ?_)
  rw [V1_v7, V1_v14]
  show GNN.newEdges _ _ (W1 m ρ c (Proc.devRef .tc main_arg1)) _ _ (W1 m ρ c (Proc.devRef .tc main_arg6)) _ (W1 m ρ c (Proc.devRef .tc main_arg8)) _ = _
  rw [W1_arg1, W1_arg6, W1_arg8]

theorem W2_arg0 : W2 m ρ c (Proc.devRef .tc main_arg0) = m ((c : Thread nD τ).loc main_arg0) :=
  (W2_of_ne m ρ c main_arg0 (by decide)).trans (W1_arg0 m ρ c)
theorem W2_arg3 : W2 m ρ c (Proc.devRef .tc main_arg3) = m ((c : Thread nD τ).loc main_arg3) :=
  (W2_of_ne m ρ c main_arg3 (by decide)).trans (W1_arg3 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W3_arg0 : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0)
  unwritten hostOps1
theorem W3_arg12 : W3 m ρ c (Proc.devRef .tc main_arg12) = m ((c : Thread nD τ).loc main_arg12) := by
  refine Eq.trans ?_ (W2_arg12 m ρ c)
  show StableHlo.after hostOps1 (W2 m ρ c) (Proc.devRef .tc main_arg12) = W2 m ρ c (Proc.devRef .tc main_arg12)
  unwritten hostOps1
theorem W3_arg14 : W3 m ρ c (Proc.devRef .tc main_arg14) = m ((c : Thread nD τ).loc main_arg14) := by
  refine Eq.trans ?_ (W2_arg14 m ρ c)
  show StableHlo.after hostOps1 (W2 m ρ c) (Proc.devRef .tc main_arg14) = W2 m ρ c (Proc.devRef .tc main_arg14)
  unwritten hostOps1

/-! ## What the node region finds -/

/-- On the extended reals a format change is the identity, so a scatter-add of the widened update, narrowed
    afterwards, is the scatter-add of the update itself (stated for any shapes). -/
theorem scatter_formats {s si su : Shape} {w : ℕ} (d : ScatterDims s si su) (z : FVec Ideal s .f32) (b : IVec si w)
    (u : FVec Ideal su .bf16) (h1 : FTy.bf16.bits < FTy.f32.bits) (h2 : FTy.bf16.bits < FTy.f32.bits) :
    truncf .bf16 (Host.scatterAdd d z b (extf .f32 u h1)) h2
      = (Host.scatterAdd d z b ((fun k => u k : FVec Ideal su .f32)) : FVec Ideal s .f32) := by
  have e : extf .f32 u h1 = (fun k => u k : FVec Ideal su .f32) := rfl
  rw [e]
  rfl

/-- The two programs print the same scatter dimension numbers. -/
theorem scatter_dims_eq : scatter_S100000x128_S600000x1_S600000x128_1_0_0_1
    = Cert.ReferenceIdeal.scatter_S100000x128_S600000x1_S600000x128_1_0_0_1 := rfl

/-- The zero array the kernel program scatters into is the reference's. -/
theorem zero_nodes_eq : broadcastInDim S100000x128 ![] bcast_S_S100000x128 (constant (F := Ideal) S_ .f32 0x00000000#32)
    = Cert.ReferenceIdeal.Read.val_main_v29 (F := Ideal) := rfl

/-- The receiver column the kernel program scatters by is the reference's. -/
theorem receivers_eq (x3 : S600000.Idx → BitVec 32) :
    broadcastInDim S600000x1 ![0] bcast_S600000_S600000x1_0 x3 = Cert.ReferenceIdeal.Read.val_main_v30 (F := Ideal) x3 := rfl

/-- The aggregate the node region finds is the reference's aggregate. -/
theorem V3_v26 : V3 m ρ c main_v26 = (Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps1 (W2 m ρ c) (Proc.devRef .tc main_v26) = _
  after_results_simp
  rw [W2_arg3]
  unfold Cert.ReferenceIdeal.Read.val_main_v31
  rw [Cert.ReferenceIdeal.RefValue.update_edges, ← W2_update m ρ c]
  generalize W2 m ρ c (Proc.devRef .tc main_v21_1) = U
  refine (scatter_formats _ _ _ U _ _).trans ?_
  rw [scatter_dims_eq, zero_nodes_eq, receivers_eq]

/-- Part 1 of the node perceptron's first weight read at (j, k) is the weight at (j, k). -/
theorem V3_v27 (j k : Fin 128) : V3 m ρ c main_v27 (ix2 j k) = (m ((c : Thread nD τ).loc main_arg10)) (ix2 (⟨j.val, by omega⟩ : Fin 256) k) := by
  have e : W3 m ρ c (Proc.devRef .tc main_v27)
      = extractStridedSlice S128x128 ![0, 0] (W2 m ρ c (Proc.devRef .tc main_arg10)) slices_S256x128_S128x128_0_0 := by
    show StableHlo.after hostOps1 (W2 m ρ c) (Proc.devRef .tc main_v27) = _
    after_results_simp
  show W3 m ρ c (Proc.devRef .tc main_v27) (ix2 j k) = _
  rw [e, W2_arg10]
  exact slice2_axis0_apply 0 (m ((c : Thread nD τ).loc main_arg10)) slices_S256x128_S128x128_0_0 j k ⟨j.val, by omega⟩ (by show j.val = 0 + j.val; omega)

/-- Part 2 of the node perceptron's first weight read at (j, k) is the weight at (128 + j, k). -/
theorem V3_v28 (j k : Fin 128) : V3 m ρ c main_v28 (ix2 j k) = (m ((c : Thread nD τ).loc main_arg10)) (ix2 (⟨128 + j.val, by omega⟩ : Fin 256) k) := by
  have e : W3 m ρ c (Proc.devRef .tc main_v28)
      = extractStridedSlice S128x128 ![128, 0] (W2 m ρ c (Proc.devRef .tc main_arg10)) slices_S256x128_S128x128_128_0 := by
    show StableHlo.after hostOps1 (W2 m ρ c) (Proc.devRef .tc main_v28) = _
    after_results_simp
  show W3 m ρ c (Proc.devRef .tc main_v28) (ix2 j k) = _
  rw [e, W2_arg10]
  exact slice2_axis0_apply 128 (m ((c : Thread nD τ).loc main_arg10)) slices_S256x128_S128x128_128_0 j k ⟨128 + j.val, by omega⟩ rfl

/-- The bias with a leading unit axis reads at (0, k) the bias at k. -/
theorem V3_v29 (k : Fin 128) : V3 m ρ c main_v29 (ix2 (0 : Fin 1) k) = (m ((c : Thread nD τ).loc main_arg11)) (ix1 k) := by
  have e : W3 m ρ c (Proc.devRef .tc main_v29)
      = shapeCast S1x128 (W2 m ρ c (Proc.devRef .tc main_arg11)) shapeCasts_S128_S1x128 := by
    show StableHlo.after hostOps1 (W2 m ρ c) (Proc.devRef .tc main_v29) = _
    after_results_simp
    rfl
  show W3 m ρ c (Proc.devRef .tc main_v29) (ix2 (0 : Fin 1) k) = _
  rw [e, W2_arg11]
  exact shapeCast_a_1a_apply (m ((c : Thread nD τ).loc main_arg11)) shapeCasts_S128_S1x128 0 k

/-- The bias with a leading unit axis reads at (0, k) the bias at k. -/
theorem V3_v30 (k : Fin 128) : V3 m ρ c main_v30 (ix2 (0 : Fin 1) k) = (m ((c : Thread nD τ).loc main_arg13)) (ix1 k) := by
  have e : W3 m ρ c (Proc.devRef .tc main_v30)
      = shapeCast S1x128 (W2 m ρ c (Proc.devRef .tc main_arg13)) shapeCasts_S128_S1x128 := by
    show StableHlo.after hostOps1 (W2 m ρ c) (Proc.devRef .tc main_v30) = _
    after_results_simp
    rfl
  show W3 m ρ c (Proc.devRef .tc main_v30) (ix2 (0 : Fin 1) k) = _
  rw [e, W2_arg13]
  exact shapeCast_a_1a_apply (m ((c : Thread nD τ).loc main_arg13)) shapeCasts_S128_S1x128 0 k

/-- The bias with a leading unit axis reads at (0, k) the bias at k. -/
theorem V3_v31 (k : Fin 128) : V3 m ρ c main_v31 (ix2 (0 : Fin 1) k) = (m ((c : Thread nD τ).loc main_arg15)) (ix1 k) := by
  have e : W3 m ρ c (Proc.devRef .tc main_v31)
      = shapeCast S1x128 (W2 m ρ c (Proc.devRef .tc main_arg15)) shapeCasts_S128_S1x128 := by
    show StableHlo.after hostOps1 (W2 m ρ c) (Proc.devRef .tc main_v31) = _
    after_results_simp
    rfl
  show W3 m ρ c (Proc.devRef .tc main_v31) (ix2 (0 : Fin 1) k) = _
  rw [e, W2_arg15]
  exact shapeCast_a_1a_apply (m ((c : Thread nD τ).loc main_arg15)) shapeCasts_S128_S1x128 0 k

/-! ## The two results at the last boundary -/

/-- The new node array at the last boundary: the new node array of the launch arrays. -/
theorem W4_new_nodes : W4 m ρ c (Proc.devRef .tc main_v32) = GNN.newNodes (m ((c : Thread nD τ).loc main_arg0)) (Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 9).trans ((final9 (V3 m ρ) c (m ((c : Thread nD τ).loc main_arg10)) (m ((c : Thread nD τ).loc main_arg11)) (m ((c : Thread nD τ).loc main_arg13)) (m ((c : Thread nD τ).loc main_arg15))
    (V3_v27 m ρ c) (V3_v28 m ρ c) (V3_v29 m ρ c) (V3_v30 m ρ c) (V3_v31 m ρ c)).trans ?_)
  rw [V3_v26]
  show GNN.newNodes (W3 m ρ c (Proc.devRef .tc main_arg0)) _ _ _ (W3 m ρ c (Proc.devRef .tc main_arg12)) _ (W3 m ρ c (Proc.devRef .tc main_arg14)) _ = _
  rw [W3_arg0, W3_arg12, W3_arg14]

/-- The new edge array at the last boundary: nothing after the edge region writes it. -/
theorem W4_new_edges : W4 m ρ c (Proc.devRef .tc main_v21_0) = GNN.newEdges (Cert.ReferenceIdeal.Read.val_main_v6 (F := Ideal) (m ((c : Thread nD τ).loc main_arg0)) (m ((c : Thread nD τ).loc main_arg2))) (Cert.ReferenceIdeal.Read.val_main_v13 (F := Ideal) (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_of_ne m ρ c main_v21_0 (by decide)).trans (Eq.trans ?_ (W2_new_edges m ρ c))
  show StableHlo.after hostOps1 (W2 m ρ c) (Proc.devRef .tc main_v21_0) = W2 m ρ c (Proc.devRef .tc main_v21_0)
  unwritten hostOps1

end Cert.KernelIdeal.KVal

end
-- ==== Proof.RefNode.lean ====
/-
  The reference's node stage and its two results.  The reference lays the node rows and the aggregate rows side by
  side into a 256-column array and multiplies it by the whole 256-row first weight; entry (n, q) of that product is the
  sum of its two 128-wide halves, and on each half the side-by-side array is one of its two pieces: the node
  perceptron's first pre-activation with the weight read in two parts.  The remaining layers go entry by entry.  So the
  reference's new node array is the node perceptron of the node array and the aggregate, plus the node array; and its
  new edge array is its update array plus the edge array.
-/
import proofs.«138255_j73684458930837_2_alg».proof.Proof.Gen.ReferenceIdeal.Read
import proofs.«138255_j73684458930837_2_alg».proof.Proof.SpecArr
import proofs.«138255_j73684458930837_2_alg».proof.Proof.LibMatmulIx
import proofs.«138255_j73684458930837_2_alg».proof.Proof.RefEdge

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open scoped BigOperators

/-- The 256-column product at (n, q) as a sum over the contracted column. -/
theorem dot256 (x : FVec Ideal S100000x256 .f32) (w : FVec Ideal S256x128 .f32) (n : Fin 100000) (q : Fin 128) :
    Host.dotGeneral dot_S100000x256_S256x128_S100000x128_1_0_0_1_n_n none x w (ix2 n q)
      = ∑ k : Fin 256, x (ix2 n k) * w (ix2 k q) :=
  MatmulIx.dotGeneral_ix2 dot_S100000x256_S256x128_S100000x128_1_0_0_1_n_n rfl rfl
    lhs_main_v33_0 lhs_main_v33_1 rhs_main_v33_0 rhs_main_v33_1 none x w n q

/-- A 128-column product over the nodes at (n, q) as a sum over the contracted column. -/
theorem dotN128 (x : FVec Ideal S100000x128 .f32) (w : FVec Ideal S128x128 .f32) (n : Fin 100000) (q : Fin 128) :
    Host.dotGeneral dot_S100000x128_S128x128_S100000x128_1_0_0_1_n_n none x w (ix2 n q)
      = ∑ k : Fin 128, x (ix2 n k) * w (ix2 k q) :=
  MatmulIx.dotGeneral_ix2 dot_S100000x128_S128x128_S100000x128_1_0_0_1_n_n rfl rfl
    lhs_main_v38_0 lhs_main_v38_1 rhs_main_v38_0 rhs_main_v38_1 none x w n q

/-- Two 128-column arrays laid side by side, read in the first half: the first array. -/
theorem cat2_first (g1 g2 : S100000x128.Idx → EReal) (n : Fin 100000) (k : Fin 128) :
    concatenate S100000x256 1 [⟨S100000x128, g1⟩, ⟨S100000x128, g2⟩]
        concatenates_S100000x128_S100000x128_S100000x256_d1 (ix2 n (⟨k.val, by omega⟩ : Fin 256))
      = g1 (ix2 n k) :=
  concatenate_apply_piece (1 : Fin S100000x256.rank) _ _ _ 0 (by show (0 : ℕ) < 2; omega) S100000x128 g1 rfl rfl 0 rfl (ix2 n k)
    (fun b hb => by match b with | ⟨0, _⟩ => rfl | ⟨1, _⟩ => exact absurd rfl hb) (by show 0 + k.val = k.val; omega)

/-- … in the second half: the second array. -/
theorem cat2_second (g1 g2 : S100000x128.Idx → EReal) (n : Fin 100000) (k : Fin 128) :
    concatenate S100000x256 1 [⟨S100000x128, g1⟩, ⟨S100000x128, g2⟩]
        concatenates_S100000x128_S100000x128_S100000x256_d1 (ix2 n (⟨128 + k.val, by omega⟩ : Fin 256))
      = g2 (ix2 n k) :=
  concatenate_apply_piece (1 : Fin S100000x256.rank) _ _ _ 1 (by show (1 : ℕ) < 2; omega) S100000x128 g2 rfl rfl 128 rfl (ix2 n k)
    (fun b hb => by match b with | ⟨0, _⟩ => rfl | ⟨1, _⟩ => exact absurd rfl hb) rfl

/-- A bias broadcast first to one row and then over all node rows reads the bias at the column. -/
theorem bias_nodes (h1 : S128.BroadcastsInDim S1x128 ![1]) (h2 : S1x128.BroadcastsInDim S100000x128 ![0, 1])
    (b : S128.Idx → EReal) (n : Fin 100000) (q : Fin 128) :
    broadcastInDim S100000x128 ![0, 1] h2 (broadcastInDim S1x128 ![1] h1 b) (ix2 n q) = b (ix1 q) := by
  refine (broadcastInDim_apply _ h2 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])).trans ?_
  exact broadcastInDim_apply _ h1 b (ix2 (0 : Fin 1) q) (ix1 q) (fun a => match a with
    | ⟨0, _⟩ => by show q.val = if (128 : Nat) = 1 then 0 else q.val; rw [if_neg (by decide)])

/-- The one-row bias's column under entry (n, q) of the node-shaped broadcast: column q. -/
theorem idx_bias39 (n : Fin 100000) (q : Fin 128) : idx_main_v39 (idx_main_v40 (ix2 n q)) = ix1 q :=
  funext fun a => Fin.ext (by match a with | ⟨0, _⟩ => rfl)
theorem idx_bias44 (n : Fin 100000) (q : Fin 128) : idx_main_v44 (idx_main_v45 (ix2 n q)) = ix1 q :=
  funext fun a => Fin.ext (by match a with | ⟨0, _⟩ => rfl)

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S256x128, .f32⟩ : BufTy).Contents (Elt Ideal))
  (x11 : (⟨S128, .f32⟩ : BufTy).Contents (Elt Ideal)) (x12 : (⟨S128x128, .f32⟩ : BufTy).Contents (Elt Ideal))
  (x13 : (⟨S128, .f32⟩ : BufTy).Contents (Elt Ideal)) (x14 : (⟨S128x128, .f32⟩ : BufTy).Contents (Elt Ideal))
  (x15 : (⟨S128, .f32⟩ : BufTy).Contents (Elt Ideal))

/-- The node perceptron's first pre-activation at (n, j): the two partial products and the bias. -/
theorem pre_nodes (n : Fin 100000) (j : Fin 128) :
    val_main_v36 (F := Ideal) x0 x1 x2 x3 x4 x5 x6 x7 x8 x9 x10 x11 (ix2 n j)
      = GNN.pre2 (fun k => x0 (ix2 n k)) (fun k => val_main_v31 (F := Ideal) x0 x1 x2 x3 x4 x5 x6 x7 x8 x9 (ix2 n k))
          (fun k c => x10 (ix2 (⟨k.val, by omega⟩ : Fin 256) c)) (fun k c => x10 (ix2 (⟨128 + k.val, by omega⟩ : Fin 256) c))
          (fun c => x11 (ix1 c)) j := by
  unfold val_main_v36 val_main_v33 val_main_v32 val_main_v35 val_main_v34 GNN.pre2
  rw [addf_apply, dot256, bias_nodes, GNN.sum_halves]
  simp only [cat2_first, cat2_second]

/-- The reference's new node array: the node perceptron of the node array and the aggregate, plus the node array. -/
theorem new_nodes :
    val_main_v47 (F := Ideal) x0 x1 x2 x3 x4 x5 x6 x7 x8 x9 x10 x11 x12 x13 x14 x15
      = GNN.newNodes x0 (val_main_v31 (F := Ideal) x0 x1 x2 x3 x4 x5 x6 x7 x8 x9) x10 x11 x12 x13 x14 x15 := by
  funext i
  obtain ⟨n, q, rfl⟩ : ∃ (n : Fin 100000) (q : Fin 128), i = ix2 n q := ⟨i 0, i 1, eq_ix2 i⟩
  show _ = GNN.nodeAt x0 (val_main_v31 (F := Ideal) x0 x1 x2 x3 x4 x5 x6 x7 x8 x9) x10 x11 x12 x13 x14 x15 n q + x0 (ix2 n q)
  unfold GNN.nodeAt GNN.tail GNN.dense
  simp only [val_main_v47_apply, val_main_v46_apply, val_main_v45_apply, val_main_v44_apply, val_main_v43, val_main_v42_apply,
    val_main_call3_v0_apply, val_main_call3_cst_apply, val_main_v41_apply, val_main_v40_apply, val_main_v39_apply,
    val_main_v38, val_main_v37_apply, val_main_call2_v0_apply, val_main_call2_cst_apply,
    Ideal.addf_def, Ideal.maximumf_def, Ideal.ofBits_def, Ideal.ofBits_zero_f32, dotN128, idx_bias39, idx_bias44, pre_nodes]

/-- The reference's new edge array: its update array plus the edge array. -/
theorem new_edges :
    val_main_v48 (F := Ideal) x0 x1 x2 x3 x4 x5 x6 x7 x8 x9
      = GNN.newEdges (val_main_v6 (F := Ideal) x0 x2) (val_main_v13 (F := Ideal) x0 x3) x1 x4 x5 x6 x7 x8 x9 := by
  funext i
  rw [val_main_v48_apply, update_edges]
  rfl

end Cert.ReferenceIdeal.RefValue

end
-- ==== Proof.lean ====
/-
  The certificate of one graph-network block: a Pallas kernel program in two regions (an edge perceptron over blocks of
  4800 edges, a node perceptron over blocks of 4000 nodes, with host gathers before and a host scatter-add between)
  against the plain reference that lays the perceptrons' inputs side by side and multiplies by the whole first weights.

  On the extended reals the two programs compute the same arrays.  Every change of float format is the identity; a
  matrix product accumulated into zero is the host's product; the gathers and the scatter-add are the same host
  functions applied to the same arrays; and the one real difference — the kernel multiplies the three (two) 128-column
  pieces by the three (two) 128-row parts of the first weight and adds the products, where the reference multiplies the
  384-column (256-column) side-by-side array by the whole weight — is a regrouping of a finite sum, valid for all
  extended reals.  So the precondition is never opened.

  The frames of the two kernel programs are the generated ones; the reference's frame is its generated run with the
  results dropped; the idealization rewrote nothing.  The value claim: the kernel program's run names its two results
  at the last boundary's contents, which the host-side reading identifies with the new node array and the new edge
  array of the launch arrays; the reference's generated run gives its two results as one term, which is the same two
  functions of its launch arrays; and the launch arrays agree.
-/
import proofs.«138255_j73684458930837_2_alg».proof.Defs
import proofs.«138255_j73684458930837_2_alg».proof.Proof.Gen.Kernel
import proofs.«138255_j73684458930837_2_alg».proof.Proof.Gen.Kernel.Skeleton
import proofs.«138255_j73684458930837_2_alg».proof.Proof.Gen.Kernel.Launch
import proofs.«138255_j73684458930837_2_alg».proof.Proof.Gen.Kernel.Points
import proofs.«138255_j73684458930837_2_alg».proof.Proof.Gen.Kernel.Frame
import proofs.«138255_j73684458930837_2_alg».proof.Proof.Gen.KernelIdeal
import proofs.«138255_j73684458930837_2_alg».proof.Proof.Gen.KernelIdeal.Skeleton
import proofs.«138255_j73684458930837_2_alg».proof.Proof.Gen.KernelIdeal.Launch
import proofs.«138255_j73684458930837_2_alg».proof.Proof.Gen.KernelIdeal.Points
import proofs.«138255_j73684458930837_2_alg».proof.Proof.Gen.KernelIdeal.Frame
import proofs.«138255_j73684458930837_2_alg».proof.Proof.Gen.ReferenceIdeal
import proofs.«138255_j73684458930837_2_alg».proof.Proof.Gen.Pre_finite_inputs
import proofs.«138255_j73684458930837_2_alg».proof.Proof.Gen.ReferenceIdeal.Run
import proofs.«138255_j73684458930837_2_alg».proof.Proof.Gen.ReferenceIdeal.Read
import proofs.«138255_j73684458930837_2_alg».proof.Proof.KRun
import proofs.«138255_j73684458930837_2_alg».proof.Proof.KHost
import proofs.«138255_j73684458930837_2_alg».proof.Proof.RefNode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the new node array and the new edge array of the launch arrays. -/
theorem algebraic : Cert.algebraic_KernelIdeal_ReferenceIdeal := by
  intro m ρ m' ρ' _ hagree
  refine ⟨fun c => GNN.newNodes (m ((c.tc : Thread Cert.KernelIdeal.nD Cert.KernelIdeal.τ).loc Cert.KernelIdeal.main_arg0)) (Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => GNN.newEdges (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.W4_new_nodes m ρ c),
        (h c).2.1.trans (Cert.KernelIdeal.KVal.W4_new_edges m ρ c), (h c).2.2⟩)
      (Cert.KernelIdeal.KVal.run_named m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9, e10, e11, e12, e13, e14, e15⟩ := hagree c
      refine ((h c).1.trans (Cert.ReferenceIdeal.Read.val_main_v47_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))).trans
        ((Cert.ReferenceIdeal.RefValue.new_nodes (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_)
      rw [e0, e1, e2, e3, e4, e5, e6, e7, e8, e9, e10, e11, e12, e13, e14, e15]
    · obtain ⟨e0, e1, e2, e3, e4, e5, e6, e7, e8, e9, -⟩ := hagree c
      refine ((h c).2.1.trans (Cert.ReferenceIdeal.Read.val_main_v48_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))).trans
        ((Cert.ReferenceIdeal.RefValue.new_edges (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_)
      rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
